-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x20x300x512 : Shape := ⟨4, ![8, 20, 300, 512]⟩
abbrev S8x64x512 : Shape := ⟨3, ![8, 64, 512]⟩
abbrev S8x20x300 : Shape := ⟨3, ![8, 20, 300]⟩
abbrev S8x64 : Shape := ⟨2, ![8, 64]⟩
abbrev S_ : Shape := ⟨0, ![]⟩

class Facts : Prop where
  bcast_S_S8x20x300x512 : S_.BroadcastsInDim S8x20x300x512 (![] : Fin 0 → Fin S8x20x300x512.rank)
  reducesTo_S8x20x300x512_S_d0_1_2_3 : S8x20x300x512.ReducesTo [0, 1, 2, 3] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_

variable [Facts]

def fn {F : FTy → Type} [FloatOps F] (main_arg0 : FVec F S8x20x300x512 .f32) (main_arg1 : FVec F S8x64x512 .f32) (main_arg2 : IVec S8x20x300 32) (main_arg3 : IVec S8x64 32) : IVec S_ 1 :=
  let main_v0 : FVec F S8x20x300x512 .f32 := Host.absf main_arg0
  let main_cst : FVec F S_ .f32 := constant S_ .f32 0x7F800000#32
  let main_v1 : FVec F S8x20x300x512 .f32 := broadcastInDim S8x20x300x512 ![] bcast_S_S8x20x300x512 main_cst
  let main_v2 : IVec S8x20x300x512 1 := cmpf .olt main_v0 main_v1
  let main_c : IVec S_ 1 := constantI S_ 1 1#1
  let main_v3 : IVec S_ 1 := (fun x v => Host.reduce IntOp.andi x v reducesTo_S8x20x300x512_S_d0_1_2_3 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  main_v8
-- ==== Kernel.lean ====
abbrev S8x20x300x512 : Shape := ⟨4, ![8, 20, 300, 512]⟩
abbrev S8x64x512 : Shape := ⟨3, ![8, 64, 512]⟩
abbrev S8x20x300 : Shape := ⟨3, ![8, 20, 300]⟩
abbrev S8x64 : Shape := ⟨2, ![8, 64]⟩
abbrev S8x6000x512 : Shape := ⟨3, ![8, 6000, 512]⟩
abbrev S8x1x64 : Shape := ⟨3, ![8, 1, 64]⟩
abbrev S1x20x300x512 : Shape := ⟨4, ![1, 20, 300, 512]⟩
abbrev S1x64x512 : Shape := ⟨3, ![1, 64, 512]⟩
abbrev S1x20x300 : Shape := ⟨3, ![1, 20, 300]⟩
abbrev S64x512 : Shape := ⟨2, ![64, 512]⟩
abbrev S1x1x300x512 : Shape := ⟨4, ![1, 1, 300, 512]⟩
abbrev S300x512 : Shape := ⟨2, ![300, 512]⟩
abbrev S1x1x300 : Shape := ⟨3, ![1, 1, 300]⟩
abbrev S300 : Shape := ⟨1, ![300]⟩
abbrev S300x1 : Shape := ⟨2, ![300, 1]⟩
abbrev S300x64 : Shape := ⟨2, ![300, 64]⟩
abbrev S64 : Shape := ⟨1, ![64]⟩
abbrev S1x64 : Shape := ⟨2, ![1, 64]⟩
abbrev S8x6000x1024 : Shape := ⟨3, ![8, 6000, 1024]⟩
abbrev S1x2000x512 : Shape := ⟨3, ![1, 2000, 512]⟩
abbrev S1x1x64 : Shape := ⟨3, ![1, 1, 64]⟩
abbrev S1x2000x1024 : Shape := ⟨3, ![1, 2000, 1024]⟩
abbrev S2000x512 : Shape := ⟨2, ![2000, 512]⟩
abbrev S2000x64 : Shape := ⟨2, ![2000, 64]⟩
abbrev S2000 : Shape := ⟨1, ![2000]⟩
abbrev S2000x1 : Shape := ⟨2, ![2000, 1]⟩
abbrev S8x20x300x1024 : Shape := ⟨4, ![8, 20, 300, 1024]⟩

abbrev nBuf : Space → Nat
  | .hbm => 11
  | .vmem => 19
  | .smem => 0
  | _ => 0

abbrev bufTy : (tb : Table) → Fin (tcTables nBuf tb) → BufTy
  | .hbm, ⟨0, _⟩ => ⟨S8x20x300x512, .f32⟩
  | .hbm, ⟨1, _⟩ => ⟨S8x64x512, .f32⟩
  | .hbm, ⟨2, _⟩ => ⟨S8x20x300, .i32⟩
  | .hbm, ⟨3, _⟩ => ⟨S8x64, .i32⟩
  | .hbm, ⟨4, _⟩ => ⟨S8x20x300x512, .bf16⟩
  | .hbm, ⟨5, _⟩ => ⟨S8x64x512, .bf16⟩
  | .hbm, ⟨6, _⟩ => ⟨S8x6000x512, .bf16⟩
  | .hbm, ⟨7, _⟩ => ⟨S8x1x64, .i32⟩
  | .hbm, ⟨8, _⟩ => ⟨S8x64x512, .f32⟩
  | .hbm, ⟨9, _⟩ => ⟨S8x6000x1024, .f32⟩
  | .hbm, ⟨10, _⟩ => ⟨S8x20x300x1024, .f32⟩
  | .local _ .vmem, ⟨0, _⟩ => ⟨S1x20x300x512, .bf16⟩
  | .local _ .vmem, ⟨1, _⟩ => ⟨S1x20x300x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x20x300, .i32⟩
  | .local _ .vmem, ⟨5, _⟩ => ⟨S1x20x300, .i32⟩
  | .local _ .vmem, ⟨6, _⟩ => ⟨S1x64x512, .f32⟩
  | .local _ .vmem, ⟨7, _⟩ => ⟨S1x64x512, .f32⟩
  | .local _ .vmem, ⟨8, _⟩ => ⟨S64x512, .f32⟩
  | .local _ .vmem, ⟨9, _⟩ => ⟨S1x2000x512, .bf16⟩
  | .local _ .vmem, ⟨10, _⟩ => ⟨S1x2000x512, .bf16⟩
  | .local _ .vmem, ⟨11, _⟩ => ⟨S1x64x512, .bf16⟩
  | .local _ .vmem, ⟨12, _⟩ => ⟨S1x64x512, .bf16⟩
  | .local _ .vmem, ⟨13, _⟩ => ⟨S1x1x64, .i32⟩
  | .local _ .vmem, ⟨14, _⟩ => ⟨S1x1x64, .i32⟩
  | .local _ .vmem, ⟨15, _⟩ => ⟨S1x64x512, .f32⟩
  | .local _ .vmem, ⟨16, _⟩ => ⟨S1x64x512, .f32⟩
  | .local _ .vmem, ⟨17, _⟩ => ⟨S1x2000x1024, .f32⟩
  | .local _ .vmem, ⟨18, _⟩ => ⟨S1x2000x1024, .f32⟩
  | _, _ => ⟨S8x20x300x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![8], ![false]⟩

def k0_off1 (c0_i32 : BitVec 32) : Fin 4 → Nat :=
  let c0_5 : Index := 0#32
  let c0_i32_4 : BitVec 32 := 0#32
  let c1_i32 : BitVec 32 := 1#32
  let v6 : BitVec 32 := Scalar.muli c0_i32 c1_i32
  let v7 : BitVec 32 := Scalar.addi c0_i32_4 v6
  let v8 : Index := Scalar.indexCast v7
  let c0_6 : Index := 0#32
  let c0_7 : Index := 0#32
  ![0, v8.toNat, 0, 0]
def k0_off2 (c0_i32 : BitVec 32) : Fin 3 → Nat :=
  let c0_8 : Index := 0#32
  let c0_i32_4 : BitVec 32 := 0#32
  let c1_i32 : BitVec 32 := 1#32
  let v6 : BitVec 32 := Scalar.muli c0_i32 c1_i32
  let v7 : BitVec 32 := Scalar.addi c0_i32_4 v6
  let v11 : Index := Scalar.indexCast v7
  let c0_9 : Index := 0#32
  ![0, v11.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x300x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20x300 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 3], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x64 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2000x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  shapeCasts_S8x20x300x512_S8x6000x512 : S8x20x300x512.ShapeCasts S8x6000x512
  shapeCasts_S8x64_S8x1x64 : S8x64.ShapeCasts S8x1x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  h_S1x1x300x512 : 0 < S1x1x300x512.numel
  shapeCasts_S1x1x300x512_S300x512 : S1x1x300x512.ShapeCasts S300x512
  h_S1x1x300 : 0 < S1x1x300.numel
  shapeCasts_S1x1x300_S300 : S1x1x300.ShapeCasts S300
  shapeCasts_S300_S300x1 : S300.ShapeCasts S300x1
  broadcasts_S300x1_S300x64 : S300x1.Broadcasts S300x64
  reduces_S300x64_S64 : S300x64.Reduces [0] S64
  shapeCasts_S64_S1x64 : S64.ShapeCasts S1x64
  broadcasts_S1x64_S300x64 : S1x64.Broadcasts S300x64
  shapeCasts_S64x512_S1x64x512 : S64x512.ShapeCasts S1x64x512
  inb_S1x2000x512_S1x2000x512_0_0_0 : ∀ a, (![0, 0, 0] : Fin 3 → Nat) a + S1x2000x512.size a ≤ S1x2000x512.size a
  h_S1x2000x512 : 0 < S1x2000x512.numel
  shapeCasts_S1x2000x512_S2000x512 : S1x2000x512.ShapeCasts S2000x512
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S1x2000x1024_S1x2000x512_0_0_0 : ∀ a, (![0, 0, 0] : Fin 3 → Nat) a + S1x2000x512.size a ≤ S1x2000x1024.size a
  shapeCasts_S2000x512_S1x2000x512 : S2000x512.ShapeCasts S1x2000x512
  inb_S1x2000x1024_S1x2000x512_0_0_512 : ∀ a, (![0, 0, 512] : Fin 3 → Nat) a + S1x2000x512.size a ≤ S1x2000x1024.size a
  shapeCasts_S8x6000x1024_S8x20x300x1024 : S8x6000x1024.ShapeCasts S8x20x300x1024
  dot_S300x512_S64x512_S300x64_1_1_0_0_n_n_wf : DotDims.WF S300x512 S64x512 S300x64 [1] [1] [0] [0] [] []
  dot_S300x64_S300x512_S64x512_0_0_1_1_n_n_wf : DotDims.WF S300x64 S300x512 S64x512 [0] [0] [1] [1] [] []
  dot_S2000x512_S64x512_S2000x64_1_1_0_0_n_n_wf : DotDims.WF S2000x512 S64x512 S2000x64 [1] [1] [0] [0] [] []
  dot_S2000x64_S64x512_S2000x512_1_0_0_1_n_n_wf : DotDims.WF S2000x64 S64x512 S2000x512 [1] [0] [0] [1] [] []
  hrank0 : 0 < grid0.rank
  k0_off1_inb : ∀ (r : Fin 20), ∀ a, (k0_off1 (BitVec.ofNat 32 r.val)) a + S1x1x300x512.size a ≤ S1x20x300x512.size a
  k0_off2_inb : ∀ (r : Fin 20), ∀ a, (k0_off2 (BitVec.ofNat 32 r.val)) a + S1x1x300.size a ≤ S1x20x300.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20x300x512.size a ≤ S8x20x300x512.size a
  hwx0_0 : ∀ i : grid0.Coords, EltTy.bits .bf16 = 32 ∨ (Rect.block (s := S8x20x300x512) S1x20x300x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .bf16 = 32 ∨ (Rect.block (s := S8x64x512) S1x64x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20x300.size a ≤ S8x20x300.size a
  hwx0_2 : ∀ i : grid0.Coords, EltTy.bits .i32 = 32 ∨ (Rect.block (s := S8x20x300) S1x20x300.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S8x64x512.size a
  hwx0_3 : ∀ i : grid0.Coords, EltTy.bits .f32 = 32 ∨ (Rect.block (s := S8x64x512) S1x64x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x512.size a ≤ S8x6000x512.size a
  hwx1_0 : ∀ i : grid1.Coords, EltTy.bits .bf16 = 32 ∨ (Rect.block (s := S8x6000x512) S1x2000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x512.size a ≤ S8x64x512.size a
  hwx1_1 : ∀ i : grid1.Coords, EltTy.bits .bf16 = 32 ∨ (Rect.block (s := S8x64x512) S1x64x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S8x1x64.size a
  hwx1_2 : ∀ i : grid1.Coords, EltTy.bits .i32 = 32 ∨ (Rect.block (s := S8x1x64) S1x1x64.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x512.size a ≤ S8x64x512.size a
  hwx1_3 : ∀ i : grid1.Coords, EltTy.bits .f32 = 32 ∨ (Rect.block (s := S8x64x512) S1x64x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2000x1024.size a ≤ S8x6000x1024.size a
  hwx1_4 : ∀ i : grid1.Coords, EltTy.bits .f32 = 32 ∨ (Rect.block (s := S8x6000x1024) S1x2000x1024.size (cc1_transform_4 i) (hinb1_4 i)).WholeWords (EltTy.packing .f32)

variable [Facts₀]

def dot_S300x512_S64x512_S300x64_1_1_0_0_n_n : DotDims S300x512 S64x512 S300x64 where
  lhsContracting := [1]
  rhsContracting := [1]
  lhsNonContracting := [0]
  rhsNonContracting := [0]
  lhsBatch := []
  rhsBatch := []
  wf := dot_S300x512_S64x512_S300x64_1_1_0_0_n_n_wf
def dot_S300x64_S300x512_S64x512_0_0_1_1_n_n : DotDims S300x64 S300x512 S64x512 where
  lhsContracting := [0]
  rhsContracting := [0]
  lhsNonContracting := [1]
  rhsNonContracting := [1]
  lhsBatch := []
  rhsBatch := []
  wf := dot_S300x64_S300x512_S64x512_0_0_1_1_n_n_wf
def dot_S2000x512_S64x512_S2000x64_1_1_0_0_n_n : DotDims S2000x512 S64x512 S2000x64 where
  lhsContracting := [1]
  rhsContracting := [1]
  lhsNonContracting := [0]
  rhsNonContracting := [0]
  lhsBatch := []
  rhsBatch := []
  wf := dot_S2000x512_S64x512_S2000x64_1_1_0_0_n_n_wf
def dot_S2000x64_S64x512_S2000x512_1_0_0_1_n_n : DotDims S2000x64 S64x512 S2000x512 where
  lhsContracting := [1]
  rhsContracting := [0]
  lhsNonContracting := [0]
  rhsNonContracting := [1]
  lhsBatch := []
  rhsBatch := []
  wf := dot_S2000x64_S64x512_S2000x512_1_0_0_1_n_n_wf

abbrev win0_0 : Pipeline.Window sig grid0 :=
  Pipeline.Window.ofSpec (Memref.whole main_v0) S1x20x300x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x20x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x64x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x2000x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x20x300x512 : Shape := ⟨4, ![8, 20, 300, 512]⟩
abbrev S8x64x512 : Shape := ⟨3, ![8, 64, 512]⟩
abbrev S8x20x300 : Shape := ⟨3, ![8, 20, 300]⟩
abbrev S8x64 : Shape := ⟨2, ![8, 64]⟩
abbrev S8x6000x512 : Shape := ⟨3, ![8, 6000, 512]⟩
abbrev S8x6000x64 : Shape := ⟨3, ![8, 6000, 64]⟩
abbrev S8x1x64 : Shape := ⟨3, ![8, 1, 64]⟩
abbrev S_ : Shape := ⟨0, ![]⟩
abbrev S8x6000 : Shape := ⟨2, ![8, 6000]⟩
abbrev S8x6000x1 : Shape := ⟨3, ![8, 6000, 1]⟩
abbrev S8x64x6000 : Shape := ⟨3, ![8, 64, 6000]⟩
abbrev S8x64x20x300 : Shape := ⟨4, ![8, 64, 20, 300]⟩
abbrev S8x1x20x300 : Shape := ⟨4, ![8, 1, 20, 300]⟩
abbrev S8x64x20 : Shape := ⟨3, ![8, 64, 20]⟩
abbrev S8x64x20x1 : Shape := ⟨4, ![8, 64, 20, 1]⟩
abbrev S8x20x300x1024 : Shape := ⟨4, ![8, 20, 300, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x20x300x512, .f32⟩
  | .hbm, ⟨1, _⟩ => ⟨S8x64x512, .f32⟩
  | .hbm, ⟨2, _⟩ => ⟨S8x20x300, .i32⟩
  | .hbm, ⟨3, _⟩ => ⟨S8x64, .i32⟩
  | .hbm, ⟨4, _⟩ => ⟨S8x20x300, .f32⟩
  | .hbm, ⟨5, _⟩ => ⟨S8x64, .f32⟩
  | .hbm, ⟨6, _⟩ => ⟨S8x6000x512, .f32⟩
  | .hbm, ⟨7, _⟩ => ⟨S8x6000x64, .f32⟩
  | .hbm, ⟨8, _⟩ => ⟨S8x1x64, .f32⟩
  | .hbm, ⟨9, _⟩ => ⟨S8x6000x64, .f32⟩
  | .hbm, ⟨10, _⟩ => ⟨S8x6000x64, .f32⟩
  | .hbm, ⟨11, _⟩ => ⟨S_, .f32⟩
  | .hbm, ⟨12, _⟩ => ⟨S8x6000, .f32⟩
  | .hbm, ⟨13, _⟩ => ⟨S_, .f32⟩
  | .hbm, ⟨14, _⟩ => ⟨S8x6000, .f32⟩
  | .hbm, ⟨15, _⟩ => ⟨S8x6000, .f32⟩
  | .hbm, ⟨16, _⟩ => ⟨S8x6000x1, .f32⟩
  | .hbm, ⟨17, _⟩ => ⟨S8x6000x64, .f32⟩
  | .hbm, ⟨18, _⟩ => ⟨S8x6000x64, .f32⟩
  | .hbm, ⟨19, _⟩ => ⟨S8x6000x64, .f32⟩
  | .hbm, ⟨20, _⟩ => ⟨S_, .f32⟩
  | .hbm, ⟨21, _⟩ => ⟨S8x6000, .f32⟩
  | .hbm, ⟨22, _⟩ => ⟨S8x6000x1, .f32⟩
  | .hbm, ⟨23, _⟩ => ⟨S8x6000x64, .f32⟩
  | .hbm, ⟨24, _⟩ => ⟨S8x6000x64, .f32⟩
  | .hbm, ⟨25, _⟩ => ⟨S8x6000x64, .f32⟩
  | .hbm, ⟨26, _⟩ => ⟨S8x6000x64, .f32⟩
  | .hbm, ⟨27, _⟩ => ⟨S_, .f32⟩
  | .hbm, ⟨28, _⟩ => ⟨S8x6000, .f32⟩
  | .hbm, ⟨29, _⟩ => ⟨S8x6000x1, .f32⟩
  | .hbm, ⟨30, _⟩ => ⟨S_, .f32⟩
  | .hbm, ⟨31, _⟩ => ⟨S8x6000x1, .f32⟩
  | .hbm, ⟨32, _⟩ => ⟨S8x6000x1, .f32⟩
  | .hbm, ⟨33, _⟩ => ⟨S8x6000x64, .f32⟩
  | .hbm, ⟨34, _⟩ => ⟨S8x6000x64, .f32⟩
  | .hbm, ⟨35, _⟩ => ⟨S8x6000x512, .f32⟩
  | .hbm, ⟨36, _⟩ => ⟨S8x64x6000, .f32⟩
  | .hbm, ⟨37, _⟩ => ⟨S8x64x20x300, .f32⟩
  | .hbm, ⟨38, _⟩ => ⟨S8x1x20x300, .f32⟩
  | .hbm, ⟨39, _⟩ => ⟨S8x64x20x300, .f32⟩
  | .hbm, ⟨40, _⟩ => ⟨S8x64x20x300, .f32⟩
  | .hbm, ⟨41, _⟩ => ⟨S_, .f32⟩
  | .hbm, ⟨42, _⟩ => ⟨S8x64x20, .f32⟩
  | .hbm, ⟨43, _⟩ => ⟨S_, .f32⟩
  | .hbm, ⟨44, _⟩ => ⟨S8x64x20, .f32⟩
  | .hbm, ⟨45, _⟩ => ⟨S8x64x20, .f32⟩
  | .hbm, ⟨46, _⟩ => ⟨S8x64x20x1, .f32⟩
  | .hbm, ⟨47, _⟩ => ⟨S8x64x20x300, .f32⟩
  | .hbm, ⟨48, _⟩ => ⟨S8x64x20x300, .f32⟩
  | .hbm, ⟨49, _⟩ => ⟨S8x64x20x300, .f32⟩
  | .hbm, ⟨50, _⟩ => ⟨S_, .f32⟩
  | .hbm, ⟨51, _⟩ => ⟨S8x64x20, .f32⟩
  | .hbm, ⟨52, _⟩ => ⟨S8x64x20x1, .f32⟩
  | .hbm, ⟨53, _⟩ => ⟨S8x64x20x300, .f32⟩
  | .hbm, ⟨54, _⟩ => ⟨S8x64x20x300, .f32⟩
  | .hbm, ⟨55, _⟩ => ⟨S8x64x20x300, .f32⟩
  | .hbm, ⟨56, _⟩ => ⟨S8x64x20x300, .f32⟩
  | .hbm, ⟨57, _⟩ => ⟨S_, .f32⟩
  | .hbm, ⟨58, _⟩ => ⟨S8x64x20, .f32⟩
  | .hbm, ⟨59, _⟩ => ⟨S8x64x20x1, .f32⟩
  | .hbm, ⟨60, _⟩ => ⟨S_, .f32⟩
  | .hbm, ⟨61, _⟩ => ⟨S8x64x20x1, .f32⟩
  | .hbm, ⟨62, _⟩ => ⟨S8x64x20x1, .f32⟩
  | .hbm, ⟨63, _⟩ => ⟨S8x64x20x300, .f32⟩
  | .hbm, ⟨64, _⟩ => ⟨S8x64x20x300, .f32⟩
  | .hbm, ⟨65, _⟩ => ⟨S8x64x6000, .f32⟩
  | .hbm, ⟨66, _⟩ => ⟨S8x64x512, .f32⟩
  | .hbm, ⟨67, _⟩ => ⟨S8x6000x512, .f32⟩
  | .hbm, ⟨68, _⟩ => ⟨S8x20x300x512, .f32⟩
  | .hbm, ⟨69, _⟩ => ⟨S8x20x300x512, .f32⟩
  | .hbm, ⟨70, _⟩ => ⟨S8x20x300x1024, .f32⟩
  | _, _ => ⟨S8x20x300x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]

class Facts₀ : Prop where
  shapeCasts_S8x20x300x512_S8x6000x512 : S8x20x300x512.ShapeCasts S8x6000x512
  bcast_S8x64_S8x1x64_0_2 : S8x64.BroadcastsInDim S8x1x64 (![0, 2] : Fin 2 → Fin S8x1x64.rank)
  bcast_S8x1x64_S8x6000x64_0_1_2 : S8x1x64.BroadcastsInDim S8x6000x64 (![0, 1, 2] : Fin 3 → Fin S8x6000x64.rank)
  reducesTo_S8x6000x64_S8x6000_d2 : S8x6000x64.ReducesTo [2] S8x6000
  h_S_ : 0 < S_.numel
  bcast_S_S8x6000 : S_.BroadcastsInDim S8x6000 (![] : Fin 0 → Fin S8x6000.rank)
  bcast_S8x6000_S8x6000x1_0_1 : S8x6000.BroadcastsInDim S8x6000x1 (![0, 1] : Fin 2 → Fin S8x6000x1.rank)
  bcast_S8x6000x1_S8x6000x64_0_1_2 : S8x6000x1.BroadcastsInDim S8x6000x64 (![0, 1, 2] : Fin 3 → Fin S8x6000x64.rank)
  bcast_S_S8x6000x1 : S_.BroadcastsInDim S8x6000x1 (![] : Fin 0 → Fin S8x6000x1.rank)
  transposes_S8x6000x64_S8x64x6000_0_2_1 : S8x6000x64.Transposes [0, 2, 1] S8x64x6000
  shapeCasts_S8x64x6000_S8x64x20x300 : S8x64x6000.ShapeCasts S8x64x20x300
  bcast_S8x20x300_S8x1x20x300_0_2_3 : S8x20x300.BroadcastsInDim S8x1x20x300 (![0, 2, 3] : Fin 3 → Fin S8x1x20x300.rank)
  bcast_S8x1x20x300_S8x64x20x300_0_1_2_3 : S8x1x20x300.BroadcastsInDim S8x64x20x300 (![0, 1, 2, 3] : Fin 4 → Fin S8x64x20x300.rank)
  reducesTo_S8x64x20x300_S8x64x20_d3 : S8x64x20x300.ReducesTo [3] S8x64x20
  bcast_S_S8x64x20 : S_.BroadcastsInDim S8x64x20 (![] : Fin 0 → Fin S8x64x20.rank)
  bcast_S8x64x20_S8x64x20x1_0_1_2 : S8x64x20.BroadcastsInDim S8x64x20x1 (![0, 1, 2] : Fin 3 → Fin S8x64x20x1.rank)
  bcast_S8x64x20x1_S8x64x20x300_0_1_2_3 : S8x64x20x1.BroadcastsInDim S8x64x20x300 (![0, 1, 2, 3] : Fin 4 → Fin S8x64x20x300.rank)
  bcast_S_S8x64x20x1 : S_.BroadcastsInDim S8x64x20x1 (![] : Fin 0 → Fin S8x64x20x1.rank)
  shapeCasts_S8x64x20x300_S8x64x6000 : S8x64x20x300.ShapeCasts S8x64x6000
  shapeCasts_S8x6000x512_S8x20x300x512 : S8x6000x512.ShapeCasts S8x20x300x512
  concatenates_S8x20x300x512_S8x20x300x512_S8x20x300x1024_d3 : Shape.Concatenates [S8x20x300x512, S8x20x300x512] S8x20x300x1024 3
  dot_S8x6000x512_S8x64x512_S8x6000x64_2_2_1_1_0_0_wf : DotDims.WF S8x6000x512 S8x64x512 S8x6000x64 [2] [2] [1] [1] [0] [0]
  dot_S8x6000x64_S8x64x512_S8x6000x512_2_1_1_2_0_0_wf : DotDims.WF S8x6000x64 S8x64x512 S8x6000x512 [2] [1] [1] [2] [0] [0]
  dot_S8x64x6000_S8x6000x512_S8x64x512_2_1_1_2_0_0_wf : DotDims.WF S8x64x6000 S8x6000x512 S8x64x512 [2] [1] [1] [2] [0] [0]

variable [Facts₀]

def dot_S8x6000x512_S8x64x512_S8x6000x64_2_2_1_1_0_0 : DotDims S8x6000x512 S8x64x512 S8x6000x64 where
  lhsContracting := [2]
  rhsContracting := [2]
  lhsNonContracting := [1]
  rhsNonContracting := [1]
  lhsBatch := [0]
  rhsBatch := [0]
  wf := dot_S8x6000x512_S8x64x512_S8x6000x64_2_2_1_1_0_0_wf
def dot_S8x6000x64_S8x64x512_S8x6000x512_2_1_1_2_0_0 : DotDims S8x6000x64 S8x64x512 S8x6000x512 where
  lhsContracting := [2]
  rhsContracting := [1]
  lhsNonContracting := [1]
  rhsNonContracting := [2]
  lhsBatch := [0]
  rhsBatch := [0]
  wf := dot_S8x6000x64_S8x64x512_S8x6000x512_2_1_1_2_0_0_wf
def dot_S8x64x6000_S8x6000x512_S8x64x512_2_1_1_2_0_0 : DotDims S8x64x6000 S8x6000x512 S8x64x512 where
  lhsContracting := [2]
  rhsContracting := [1]
  lhsNonContracting := [1]
  rhsNonContracting := [2]
  lhsBatch := [0]
  rhsBatch := [0]
  wf := dot_S8x64x6000_S8x6000x512_S8x64x512_2_1_1_2_0_0_wf

class Facts : Prop extends Facts₀ where

variable [Facts]
-- ==== Proof.Spec.lean ====
/-
  The co-attention block as one function of its four arguments, on the extended reals.

  For one batch entry, a token row `d` (512 features) is scored against each of the 64 question rows by the inner
  product over the features.  The masked softmax is the old AllenNLP form: softmax of score·mask, multiplied by the
  mask again, divided by (its own sum plus a small constant).

  * `tokRow`: for one token row, the attention over the 64 question positions (masked by the question mask), then
    the question rows weighted by it in columns 0..511 and the rows of a second 64×512 matrix `A` weighted by it in
    columns 512..1023.
  * `docAgg`: for one batch entry, the 64×512 matrix whose row `u` is the sum, document by document (20) and token
    by token (300), of the document rows weighted by the attention of question position `u` over the tokens of that
    document (masked by the document mask).
  * `out`: `tokRow` of each token with `A := docAgg` of its batch entry.
-/
import Idealize.ShloMosaic.PureOps.Ideal
import Mathlib.Algebra.BigOperators.Fin

noncomputable section

namespace Cert.CoAttn

open Idealize.ShloMosaic

/-- The start value of a maximum: the f32 word of minus infinity. -/
abbrev negInf : EReal := Ideal.ofBits .f32 0xFF800000#32
/-- The small constant added to the renormalising sum: the f32 word nearest 1e-13. -/
abbrev tiny : EReal := Ideal.ofBits .f32 0x29E12E13#32

/-- The maximum of a finite family, started from minus infinity (and joined with it once more, as both programs do). -/
def rmax {n : ℕ} (y : Fin n → EReal) : EReal := max negInf (Finset.univ.fold max negInf y)

/-- `exp (y k - max y)`. -/
def ex {n : ℕ} (y : Fin n → EReal) (k : Fin n) : EReal := Ideal.exp (y k - rmax y)

/-- The softmax of a finite family. -/
def sm {n : ℕ} (y : Fin n → EReal) (k : Fin n) : EReal := Ideal.div (ex y k) (∑ k', ex y k')

/-- The masked softmax: softmax of `s·mk`, times `mk`, over (its sum plus `tiny`). -/
def msm {n : ℕ} (s mk : Fin n → EReal) (i : Fin n) : EReal :=
  Ideal.div (sm (fun k => s k * mk k) i * mk i) ((∑ k, sm (fun k' => s k' * mk k') k * mk k) + tiny)

/-- One token row `d` against the question rows `Q` (mask `M`) and a second matrix `A`: the row of width 1024. -/
def tokRow (d : Fin 512 → EReal) (Q : Fin 64 → Fin 512 → EReal) (M : Fin 64 → EReal) (A : Fin 64 → Fin 512 → EReal)
    (j : Fin 1024) : EReal :=
  if h : j.val < 512 then ∑ u : Fin 64, msm (fun u' => ∑ h' : Fin 512, d h' * Q u' h') M u * Q u ⟨j.val, h⟩
  else ∑ u : Fin 64, msm (fun u' => ∑ h' : Fin 512, d h' * Q u' h') M u * A u ⟨j.val - 512, by have := j.isLt; omega⟩

/-- One batch entry's documents `D` (20 × 300 rows, mask `K`) against the question rows `Q`: the 64 × 512 matrix of
    attention-weighted document rows. -/
def docAgg (D : Fin 20 → Fin 300 → Fin 512 → EReal) (Q : Fin 64 → Fin 512 → EReal) (K : Fin 20 → Fin 300 → EReal)
    (u : Fin 64) (h : Fin 512) : EReal :=
  ∑ n : Fin 20, ∑ t : Fin 300, msm (fun t' => ∑ h' : Fin 512, D n t' h' * Q u h') (K n) t * D n t h

/-- The whole result at batch entry `b`, document `n`, token `t`, column `j`. -/
def out (doc : Fin 8 → Fin 20 → Fin 300 → Fin 512 → EReal) (q : Fin 8 → Fin 64 → Fin 512 → EReal)
    (dmk : Fin 8 → Fin 20 → Fin 300 → EReal) (qmk : Fin 8 → Fin 64 → EReal)
    (b : Fin 8) (n : Fin 20) (t : Fin 300) (j : Fin 1024) : EReal :=
  tokRow (doc b n t) (q b) (qmk b) (docAgg (doc b) (q b) (dmk b)) j

end Cert.CoAttn

end
-- ==== Proof.LibSumBlocks.lean ====
import Mathlib.Algebra.BigOperators.Fin
import Mathlib.Logic.Equiv.Fin.Basic

/-!
# A sum over `q · n` indices as `q` blocks of `n`

In any commutative additive monoid — in particular on the extended reals, where no finiteness is needed — a sum
over `Fin (q * n)` is the sum over the `q` consecutive blocks of the sums over each block's `n` indices.
-/

namespace Cert.LibSumBlocks

theorem block_lt {q n : ℕ} (j : Fin q) (k : Fin n) : n * j.val + k.val < q * n := by
  have hj := j.isLt; have hk := k.isLt
  calc n * j.val + k.val < n * j.val + n := by omega
    _ = n * (j.val + 1) := by rw [Nat.mul_add, Nat.mul_one]
    _ ≤ n * q := Nat.mul_le_mul_left _ hj
    _ = q * n := Nat.mul_comm _ _

/-- The sum over `Fin (q * n)`, block by block. -/
theorem sum_blocks {M : Type*} [AddCommMonoid M] (q n : ℕ) (f : Fin (q * n) → M) :
    ∑ i, f i = ∑ j : Fin q, ∑ k : Fin n, f ⟨n * j.val + k.val, block_lt j k⟩ := by
  rw [← (finProdFinEquiv (m := q) (n := n)).sum_comp, Fintype.sum_prod_type]
  refine Finset.sum_congr rfl fun j _ => Finset.sum_congr rfl fun k _ => ?_
  congr 1
  apply Fin.ext
  show k.val + n * j.val = n * j.val + k.val
  exact Nat.add_comm _ _

end Cert.LibSumBlocks
-- ==== Proof.RefValueTok.lean ====
import proofs.«160770_j72507637891628_2_alg».proof.Proof.Spec
import proofs.«160770_j72507637891628_2_alg».proof.Proof.RefRead

/-!
# The reference's attention over the question positions

For a batch entry `b` and one of its 6000 token rows `k`, the reference multiplies the row's 64 scores by the
question mask, takes their softmax (maximum started from minus infinity, exponentials, their sum), multiplies by the
mask again and divides by the sum of the result plus the small constant.  Read at one question position this is the
masked softmax `msm` of the row's scores and the mask.  The scores themselves stay an unopened function here.
-/

noncomputable section

namespace Cert.CoAttn.Ref

open Cert.ReferenceIdeal Cert.ReferenceIdeal.Gen Cert.ReferenceIdeal.ReadP Idealize.ShloMosaic Idealize.ShloMosaic.ValueIdx

variable (x0 : (⟨S8x20x300x512, .f32⟩ : BufTy).Contents (Elt Ideal))
  (x1 : (⟨S8x64x512, .f32⟩ : BufTy).Contents (Elt Ideal))
  (x3 : (⟨S8x64, .i32⟩ : BufTy).Contents (Elt Ideal))

/-- The question mask of batch entry `b` at position `u`, as an extended real. -/
abbrev qm (b : Fin 8) (u : Fin 64) : EReal := FloatOps.sitofp (F := Ideal) .f32 (x3 (ix2 b u))

/-- The masked scores: score times mask. -/
theorem v6_at (b : Fin 8) (k : Fin 6000) (u : Fin 64) :
    val_main_v6 (F := Ideal) x0 x1 x3 (ix3 b k u)
      = (val_main_v3 (F := Ideal) x0 x1 (ix3 b k u) : EReal) * qm x3 b u := by
  rw [val_main_v6_apply, val_main_v5_apply, val_main_v4_apply, val_main_v1_apply,
    show idx_main_v4 (idx_main_v5 (ix3 b k u)) = ix2 b u from
      funext fun a => by match a with | ⟨0, _⟩ => rfl | ⟨1, _⟩ => rfl]
  rfl

/-- The row maximum of the masked scores, started from minus infinity and joined with it once more. -/
theorem v9_at (b : Fin 8) (k : Fin 6000) :
    val_main_v9 (F := Ideal) x0 x1 x3 (ix2 b k)
      = rmax (fun u : Fin 64 => (val_main_v6 (F := Ideal) x0 x1 x3 (ix3 b k u) : EReal)) := by
  rw [val_main_v9_apply, val_main_v8_apply, val_main_cst_0_apply]
  unfold val_main_v7
  generalize val_main_v6 (F := Ideal) x0 x1 x3 = y
  rw [Host.reduce_eq_fold_single (FloatOps.maximumf (F := Ideal) (φ := .f32)) y (val_main_cst (F := Ideal)) reducesTo_S8x6000x64_S8x6000_d2
    (by decide : Shape.Reduces S8x6000x64 [2] S8x6000) h_S_ (ix2 b k), val_main_cst_apply]
  exact congrArg (max negInf) (Finset.fold_congr fun u _ => congrArg y (funext fun a => Fin.ext (by
    match a with | ⟨0, _⟩ => rfl | ⟨1, _⟩ => rfl | ⟨2, _⟩ => rfl)))

/-- The exponentials. -/
theorem v13_at (b : Fin 8) (k : Fin 6000) (u : Fin 64) :
    val_main_v13 (F := Ideal) x0 x1 x3 (ix3 b k u)
      = ex (fun u' : Fin 64 => (val_main_v6 (F := Ideal) x0 x1 x3 (ix3 b k u') : EReal)) u := by
  rw [val_main_v13_apply, val_main_v12_apply, val_main_v11_apply, val_main_v10_apply,
    show idx_main_v10 (idx_main_v11 (ix3 b k u)) = ix2 b k from
      funext fun a => by match a with | ⟨0, _⟩ => rfl | ⟨1, _⟩ => rfl,
    v9_at]
  generalize val_main_v6 (F := Ideal) x0 x1 x3 = y
  rfl

/-- The sum of the exponentials (the host's sum starts from the zero word). -/
theorem v16_at (b : Fin 8) (k : Fin 6000) (u : Fin 64) :
    val_main_v16 (F := Ideal) x0 x1 x3 (ix3 b k u)
      = ∑ u' : Fin 64, ex (fun u'' : Fin 64 => (val_main_v6 (F := Ideal) x0 x1 x3 (ix3 b k u'') : EReal)) u' := by
  rw [val_main_v16_apply, val_main_v15_apply, val_main_v14_apply, val_main_cst_1_apply]
  show (Ideal.ofBits .f32 0x00000000#32 : EReal) + _ = _
  rw [Ideal.ofBits_zero_f32, zero_add]
  refine Finset.sum_congr rfl fun u' _ => ?_
  rw [← v13_at]
  exact congrArg (val_main_v13 (F := Ideal) x0 x1 x3) (funext fun a => by
    match a with | ⟨0, _⟩ => rfl | ⟨1, _⟩ => rfl | ⟨2, _⟩ => rfl)

/-- The softmax. -/
theorem v17_at (b : Fin 8) (k : Fin 6000) (u : Fin 64) :
    val_main_v17 (F := Ideal) x0 x1 x3 (ix3 b k u)
      = sm (fun u' : Fin 64 => (val_main_v6 (F := Ideal) x0 x1 x3 (ix3 b k u') : EReal)) u := by
  rw [val_main_v17_apply, v13_at, v16_at]
  generalize val_main_v6 (F := Ideal) x0 x1 x3 = y
  rfl

/-- The softmax times the mask. -/
theorem v19_at (b : Fin 8) (k : Fin 6000) (u : Fin 64) :
    val_main_v19 (F := Ideal) x0 x1 x3 (ix3 b k u)
      = sm (fun u' : Fin 64 => (val_main_v6 (F := Ideal) x0 x1 x3 (ix3 b k u') : EReal)) u * qm x3 b u := by
  rw [val_main_v19_apply, v17_at, val_main_v18_apply, val_main_v4_apply, val_main_v1_apply,
    show idx_main_v4 (idx_main_v18 (ix3 b k u)) = ix2 b u from
      funext fun a => by match a with | ⟨0, _⟩ => rfl | ⟨1, _⟩ => rfl]
  generalize val_main_v6 (F := Ideal) x0 x1 x3 = y
  rfl

/-- The renormalising divisor: the sum of the masked softmax plus the small constant. -/
theorem v24_at (b : Fin 8) (k : Fin 6000) (u : Fin 64) :
    val_main_v24 (F := Ideal) x0 x1 x3 (ix3 b k u)
      = (∑ u' : Fin 64, sm (fun u'' : Fin 64 => (val_main_v6 (F := Ideal) x0 x1 x3 (ix3 b k u'') : EReal)) u'
          * qm x3 b u') + tiny := by
  rw [val_main_v24_apply, val_main_v23_apply, val_main_v21_apply, val_main_v22_apply, val_main_cst_3_apply,
    val_main_v20_apply, val_main_cst_2_apply]
  show ((Ideal.ofBits .f32 0x00000000#32 : EReal) + _) + tiny = _
  rw [Ideal.ofBits_zero_f32, zero_add]
  refine congrArg (· + tiny) ?_
  refine Finset.sum_congr rfl fun u' _ => ?_
  rw [← v19_at]
  exact congrArg (val_main_v19 (F := Ideal) x0 x1 x3) (funext fun a => by
    match a with | ⟨0, _⟩ => rfl | ⟨1, _⟩ => rfl | ⟨2, _⟩ => rfl)

/-- Operations 4 to 25 at one element: the masked softmax over the 64 question positions of the scores of token row
    `k`, with the question mask. -/
theorem v25_at (b : Fin 8) (k : Fin 6000) (u : Fin 64) :
    val_main_v25 (F := Ideal) x0 x1 x3 (ix3 b k u)
      = msm (fun u' : Fin 64 => (val_main_v3 (F := Ideal) x0 x1 (ix3 b k u') : EReal)) (fun u' => qm x3 b u') u := by
  rw [val_main_v25_apply, v19_at, v24_at,
    show (fun u' : Fin 64 => (val_main_v6 (F := Ideal) x0 x1 x3 (ix3 b k u') : EReal))
      = fun u' => (val_main_v3 (F := Ideal) x0 x1 (ix3 b k u') : EReal) * qm x3 b u' from
      funext fun u' => v6_at x0 x1 x3 b k u']
  generalize val_main_v3 (F := Ideal) x0 x1 = s
  rfl

end Cert.CoAttn.Ref

end
-- ==== Proof.RefValueDoc.lean ====
import proofs.«160770_j72507637891628_2_alg».proof.Proof.Spec
import proofs.«160770_j72507637891628_2_alg».proof.Proof.RefRead

/-!
# The reference's attention over the tokens of one document

The reference transposes the scores, cuts the 6000 token rows of a batch entry into 20 documents of 300, multiplies
by the document mask and takes, for each question position `u` and each document `n`, the masked softmax over the
document's 300 tokens.  Token row `300 n + t` is token `t` of document `n`.  The scores stay an unopened function.
-/

noncomputable section

namespace Cert.CoAttn.Ref

open Cert.ReferenceIdeal Cert.ReferenceIdeal.Gen Cert.ReferenceIdeal.ReadP Idealize.ShloMosaic Idealize.ShloMosaic.ValueIdx

variable (x0 : (⟨S8x20x300x512, .f32⟩ : BufTy).Contents (Elt Ideal))
  (x1 : (⟨S8x64x512, .f32⟩ : BufTy).Contents (Elt Ideal))
  (x2 : (⟨S8x20x300, .i32⟩ : BufTy).Contents (Elt Ideal))

/-- Token `t` of document `n` among the 6000 token rows of a batch entry. -/
abbrev tok (n : Fin 20) (t : Fin 300) : Fin 6000 :=
  ⟨300 * n.val + t.val, by have := n.isLt; have := t.isLt; omega⟩

/-- The document mask of batch entry `b`, document `n`, token `t`, as an extended real. -/
abbrev dm (b : Fin 8) (n : Fin 20) (t : Fin 300) : EReal := FloatOps.sitofp (F := Ideal) .f32 (x2 (ix3 b n t))

/-- The transposed and regrouped scores: position `(b, u, n, t)` holds the score of token row `300 n + t` against `u`. -/
theorem v28_at (b : Fin 8) (u : Fin 64) (n : Fin 20) (t : Fin 300) :
    val_main_v28 (F := Ideal) x0 x1 (ix4 b u n t) = val_main_v3 (F := Ideal) x0 x1 (ix3 b (tok n t) u) := by
  rw [val_main_v28_apply, val_main_v27_apply]
  refine congrArg (val_main_v3 (F := Ideal) x0 x1) (funext fun a => Fin.ext ?_)
  have hb := b.isLt; have hu := u.isLt; have hn := n.isLt; have ht := t.isLt
  match a with
  | ⟨0, _⟩ => show (((b.val * 64 + u.val) * 20 + n.val) * 300 + t.val) / 384000 = b.val; omega
  | ⟨1, _⟩ => show (((b.val * 64 + u.val) * 20 + n.val) * 300 + t.val) % 6000 = 300 * n.val + t.val; omega
  | ⟨2, _⟩ => show (((b.val * 64 + u.val) * 20 + n.val) * 300 + t.val) / 6000 % 64 = u.val; omega

/-- The masked scores: score times mask. -/
theorem v31_at (b : Fin 8) (u : Fin 64) (n : Fin 20) (t : Fin 300) :
    val_main_v31 (F := Ideal) x0 x1 x2 (ix4 b u n t)
      = (val_main_v28 (F := Ideal) x0 x1 (ix4 b u n t) : EReal) * dm x2 b n t := by
  rw [val_main_v31_apply, val_main_v30_apply, val_main_v29_apply, val_main_v0_apply,
    show idx_main_v29 (idx_main_v30 (ix4 b u n t)) = ix3 b n t from
      funext fun a => by match a with | ⟨0, _⟩ => rfl | ⟨1, _⟩ => rfl | ⟨2, _⟩ => rfl]
  rfl

/-- The maximum over a document's tokens, started from minus infinity and joined with it once more. -/
theorem v34_at (b : Fin 8) (u : Fin 64) (n : Fin 20) :
    val_main_v34 (F := Ideal) x0 x1 x2 (ix3 b u n)
      = rmax (fun t : Fin 300 => (val_main_v31 (F := Ideal) x0 x1 x2 (ix4 b u n t) : EReal)) := by
  rw [val_main_v34_apply, val_main_v33_apply, val_main_cst_5_apply]
  unfold val_main_v32
  generalize val_main_v31 (F := Ideal) x0 x1 x2 = y
  rw [Host.reduce_eq_fold_single (FloatOps.maximumf (F := Ideal) (φ := .f32)) y (val_main_cst_4 (F := Ideal)) reducesTo_S8x64x20x300_S8x64x20_d3
    (by decide : Shape.Reduces S8x64x20x300 [3] S8x64x20) h_S_ (ix3 b u n), val_main_cst_4_apply]
  exact congrArg (max negInf) (Finset.fold_congr fun t _ => congrArg y (funext fun a => Fin.ext (by
    match a with | ⟨0, _⟩ => rfl | ⟨1, _⟩ => rfl | ⟨2, _⟩ => rfl | ⟨3, _⟩ => rfl)))

/-- The exponentials. -/
theorem v38_at (b : Fin 8) (u : Fin 64) (n : Fin 20) (t : Fin 300) :
    val_main_v38 (F := Ideal) x0 x1 x2 (ix4 b u n t)
      = ex (fun t' : Fin 300 => (val_main_v31 (F := Ideal) x0 x1 x2 (ix4 b u n t') : EReal)) t := by
  rw [val_main_v38_apply, val_main_v37_apply, val_main_v36_apply, val_main_v35_apply,
    show idx_main_v35 (idx_main_v36 (ix4 b u n t)) = ix3 b u n from
      funext fun a => by match a with | ⟨0, _⟩ => rfl | ⟨1, _⟩ => rfl | ⟨2, _⟩ => rfl,
    v34_at]
  generalize val_main_v31 (F := Ideal) x0 x1 x2 = y
  rfl

/-- The sum of the exponentials (the host's sum starts from the zero word). -/
theorem v41_at (b : Fin 8) (u : Fin 64) (n : Fin 20) (t : Fin 300) :
    val_main_v41 (F := Ideal) x0 x1 x2 (ix4 b u n t)
      = ∑ t' : Fin 300, ex (fun t'' : Fin 300 => (val_main_v31 (F := Ideal) x0 x1 x2 (ix4 b u n t'') : EReal)) t' := by
  rw [val_main_v41_apply, val_main_v40_apply, val_main_v39_apply, val_main_cst_6_apply]
  show (Ideal.ofBits .f32 0x00000000#32 : EReal) + _ = _
  rw [Ideal.ofBits_zero_f32, zero_add]
  refine Finset.sum_congr rfl fun t' _ => ?_
  rw [← v38_at]
  exact congrArg (val_main_v38 (F := Ideal) x0 x1 x2) (funext fun a => by
    match a with | ⟨0, _⟩ => rfl | ⟨1, _⟩ => rfl | ⟨2, _⟩ => rfl | ⟨3, _⟩ => rfl)

/-- The softmax. -/
theorem v42_at (b : Fin 8) (u : Fin 64) (n : Fin 20) (t : Fin 300) :
    val_main_v42 (F := Ideal) x0 x1 x2 (ix4 b u n t)
      = sm (fun t' : Fin 300 => (val_main_v31 (F := Ideal) x0 x1 x2 (ix4 b u n t') : EReal)) t := by
  rw [val_main_v42_apply, v38_at, v41_at]
  generalize val_main_v31 (F := Ideal) x0 x1 x2 = y
  rfl

/-- The softmax times the mask. -/
theorem v44_at (b : Fin 8) (u : Fin 64) (n : Fin 20) (t : Fin 300) :
    val_main_v44 (F := Ideal) x0 x1 x2 (ix4 b u n t)
      = sm (fun t' : Fin 300 => (val_main_v31 (F := Ideal) x0 x1 x2 (ix4 b u n t') : EReal)) t * dm x2 b n t := by
  rw [val_main_v44_apply, v42_at, val_main_v43_apply, val_main_v29_apply, val_main_v0_apply,
    show idx_main_v29 (idx_main_v43 (ix4 b u n t)) = ix3 b n t from
      funext fun a => by match a with | ⟨0, _⟩ => rfl | ⟨1, _⟩ => rfl | ⟨2, _⟩ => rfl]
  generalize val_main_v31 (F := Ideal) x0 x1 x2 = y
  rfl

/-- The renormalising divisor: the sum of the masked softmax plus the small constant. -/
theorem v49_at (b : Fin 8) (u : Fin 64) (n : Fin 20) (t : Fin 300) :
    val_main_v49 (F := Ideal) x0 x1 x2 (ix4 b u n t)
      = (∑ t' : Fin 300, sm (fun t'' : Fin 300 => (val_main_v31 (F := Ideal) x0 x1 x2 (ix4 b u n t'') : EReal)) t'
          * dm x2 b n t') + tiny := by
  rw [val_main_v49_apply, val_main_v48_apply, val_main_v46_apply, val_main_v47_apply, val_main_cst_8_apply,
    val_main_v45_apply, val_main_cst_7_apply]
  show ((Ideal.ofBits .f32 0x00000000#32 : EReal) + _) + tiny = _
  rw [Ideal.ofBits_zero_f32, zero_add]
  refine congrArg (· + tiny) ?_
  refine Finset.sum_congr rfl fun t' _ => ?_
  rw [← v44_at]
  exact congrArg (val_main_v44 (F := Ideal) x0 x1 x2) (funext fun a => by
    match a with | ⟨0, _⟩ => rfl | ⟨1, _⟩ => rfl | ⟨2, _⟩ => rfl | ⟨3, _⟩ => rfl)

/-- Operations 27 to 50 at one element: the masked softmax over the 300 tokens of document `n` of their scores
    against question position `u`, with the document mask. -/
theorem v50_at (b : Fin 8) (u : Fin 64) (n : Fin 20) (t : Fin 300) :
    val_main_v50 (F := Ideal) x0 x1 x2 (ix4 b u n t)
      = msm (fun t' : Fin 300 => (val_main_v3 (F := Ideal) x0 x1 (ix3 b (tok n t') u) : EReal))
          (fun t' => dm x2 b n t') t := by
  rw [val_main_v50_apply, v44_at, v49_at,
    show (fun t' : Fin 300 => (val_main_v31 (F := Ideal) x0 x1 x2 (ix4 b u n t') : EReal))
      = fun t' => (val_main_v3 (F := Ideal) x0 x1 (ix3 b (tok n t') u) : EReal) * dm x2 b n t' from
      funext fun t' => (v31_at x0 x1 x2 b u n t').trans (congrArg (· * dm x2 b n t') (v28_at x0 x1 b u n t'))]
  generalize val_main_v3 (F := Ideal) x0 x1 = s
  rfl

end Cert.CoAttn.Ref

end
-- ==== Proof.RefValue.lean ====
import proofs.«160770_j72507637891628_2_alg».proof.Proof.Spec
import proofs.«160770_j72507637891628_2_alg».proof.Proof.RefRead
import proofs.«160770_j72507637891628_2_alg».proof.Proof.LibSumBlocks
import proofs.«160770_j72507637891628_2_alg».proof.Proof.RefValueTok
import proofs.«160770_j72507637891628_2_alg».proof.Proof.RefValueDoc

/-!
# The reference computes the specification

The scores of token `t` of document `n` against question position `u` are the inner product over the 512 features.
With the two masked softmaxes read elsewhere, the attention-weighted question rows (columns 0..511), the
attention-weighted document rows summed over all 6000 = 20 · 300 tokens (the sum taken document by document), and the
question-side attention applied to that matrix (columns 512..1023) are the specification's `tokRow` and `docAgg`;
the concatenation of the two halves is `out`.  Only commutativity and associativity of the sum are used.
-/

noncomputable section

namespace Cert.CoAttn.Ref

open Cert.ReferenceIdeal Cert.ReferenceIdeal.Gen Cert.ReferenceIdeal.ReadP Idealize.ShloMosaic Idealize.ShloMosaic.ValueIdx

variable (x0 : (⟨S8x20x300x512, .f32⟩ : BufTy).Contents (Elt Ideal))
  (x1 : (⟨S8x64x512, .f32⟩ : BufTy).Contents (Elt Ideal))
  (x2 : (⟨S8x20x300, .i32⟩ : BufTy).Contents (Elt Ideal))
  (x3 : (⟨S8x64, .i32⟩ : BufTy).Contents (Elt Ideal))

/-- The regrouped documents read at token row `300 n + t`: the document array at `(n, t)`. -/
theorem v2_at (b : Fin 8) (n : Fin 20) (t : Fin 300) (h : Fin 512) (k : Fin 6000) (hk : k.val = 300 * n.val + t.val) :
    val_main_v2 (F := Ideal) x0 (ix3 b k h) = x0 (ix4 b n t h) := by
  rw [val_main_v2_apply]
  refine congrArg x0 (funext fun a => Fin.ext ?_)
  have hb := b.isLt; have hn := n.isLt; have ht := t.isLt; have hh := h.isLt
  match a with
  | ⟨0, _⟩ => show ((b.val * 6000 + k.val) * 512 + h.val) / 3072000 = b.val; omega
  | ⟨1, _⟩ => show ((b.val * 6000 + k.val) * 512 + h.val) / 153600 % 20 = n.val; omega
  | ⟨2, _⟩ => show ((b.val * 6000 + k.val) * 512 + h.val) / 512 % 300 = t.val; omega
  | ⟨3, _⟩ => show ((b.val * 6000 + k.val) * 512 + h.val) % 512 = h.val; omega

/-- The scores: the inner product of a token row with a question row. -/
theorem scores_at (b : Fin 8) (n : Fin 20) (t : Fin 300) (u : Fin 64) :
    val_main_v3 (F := Ideal) x0 x1 (ix3 b (tok n t) u)
      = ∑ h : Fin 512, (x0 (ix4 b n t h) : EReal) * x1 (ix3 b u h) := by
  rw [val_main_v3_apply]
  refine Finset.sum_congr rfl fun h _ => ?_
  rw [show lidx_main_v3 (ix3 b (tok n t) u) h = ix3 b (tok n t) h from
      funext fun a => by match a with | ⟨0, _⟩ => rfl | ⟨1, _⟩ => rfl | ⟨2, _⟩ => rfl,
    show ridx_main_v3 (ix3 b (tok n t) u) h = ix3 b u h from
      funext fun a => by match a with | ⟨0, _⟩ => rfl | ⟨1, _⟩ => rfl | ⟨2, _⟩ => rfl,
    v2_at x0 b n t h (tok n t) rfl]

/-- The attention of token `t` of document `n` over the question positions. -/
theorem attn_at (b : Fin 8) (n : Fin 20) (t : Fin 300) (u : Fin 64) :
    val_main_v25 (F := Ideal) x0 x1 x3 (ix3 b (tok n t) u)
      = msm (fun u' : Fin 64 => ∑ h : Fin 512, (x0 (ix4 b n t h) : EReal) * x1 (ix3 b u' h))
          (fun u' => qm x3 b u') u := by
  rw [v25_at, show (fun u' : Fin 64 => (val_main_v3 (F := Ideal) x0 x1 (ix3 b (tok n t) u') : EReal))
      = fun u' => ∑ h : Fin 512, (x0 (ix4 b n t h) : EReal) * x1 (ix3 b u' h) from
      funext fun u' => scores_at x0 x1 b n t u']

/-- One term of the sum over the token rows: row `k = 300 n + t` contributes the attention of question position `u`
    over the tokens of document `n`, at token `t`, times the document row. -/
theorem v52_term (b : Fin 8) (u : Fin 64) (h : Fin 512) (n : Fin 20) (t : Fin 300) (k : Fin 6000)
    (hk : k.val = 300 * n.val + t.val) :
    (val_main_v51 (F := Ideal) x0 x1 x2 (lidx_main_v52 (ix3 b u h) k) : EReal)
        * val_main_v2 (F := Ideal) x0 (ridx_main_v52 (ix3 b u h) k)
      = msm (fun t' : Fin 300 => ∑ h' : Fin 512, (x0 (ix4 b n t' h') : EReal) * x1 (ix3 b u h'))
          (fun t' => dm x2 b n t') t * x0 (ix4 b n t h) := by
  have hb := b.isLt; have hu := u.isLt; have hn := n.isLt; have ht := t.isLt
  have hkt : k = tok n t := Fin.ext hk
  subst hkt
  have e1 : idx_main_v51 (lidx_main_v52 (ix3 b u h) (tok n t)) = ix4 b u n t := funext fun a => Fin.ext (by
    match a with
    | ⟨0, _⟩ => show ((b.val * 64 + u.val) * 6000 + (300 * n.val + t.val)) / 384000 = b.val; omega
    | ⟨1, _⟩ => show ((b.val * 64 + u.val) * 6000 + (300 * n.val + t.val)) / 6000 % 64 = u.val; omega
    | ⟨2, _⟩ => show ((b.val * 64 + u.val) * 6000 + (300 * n.val + t.val)) / 300 % 20 = n.val; omega
    | ⟨3, _⟩ => show ((b.val * 64 + u.val) * 6000 + (300 * n.val + t.val)) % 300 = t.val; omega)
  have e2 : ridx_main_v52 (ix3 b u h) (tok n t) = ix3 b (tok n t) h :=
    funext fun a => by match a with | ⟨0, _⟩ => rfl | ⟨1, _⟩ => rfl | ⟨2, _⟩ => rfl
  rw [val_main_v51_apply, e1, e2, v2_at x0 b n t h (tok n t) rfl, v50_at,
    show (fun t' : Fin 300 => (val_main_v3 (F := Ideal) x0 x1 (ix3 b (tok n t') u) : EReal))
      = fun t' => ∑ h' : Fin 512, (x0 (ix4 b n t' h') : EReal) * x1 (ix3 b u h') from
      funext fun t' => scores_at x0 x1 b n t' u]

/-- The attention-weighted document rows: the sum over the 6000 token rows taken document by document. -/
theorem v52_at (b : Fin 8) (u : Fin 64) (h : Fin 512) :
    val_main_v52 (F := Ideal) x0 x1 x2 (ix3 b u h)
      = docAgg (fun n t h' => (x0 (ix4 b n t h') : EReal)) (fun u' h' => (x1 (ix3 b u' h') : EReal))
          (fun n t => dm x2 b n t) u h := by
  rw [val_main_v52_apply]
  refine (Cert.LibSumBlocks.sum_blocks 20 300 (fun k : Fin 6000 =>
    (val_main_v51 (F := Ideal) x0 x1 x2 (lidx_main_v52 (ix3 b u h) k) : EReal)
      * val_main_v2 (F := Ideal) x0 (ridx_main_v52 (ix3 b u h) k))).trans ?_
  unfold docAgg
  exact Finset.sum_congr rfl fun n _ => Finset.sum_congr rfl fun t _ =>
    v52_term x0 x1 x2 b u h n t ⟨300 * n.val + t.val, Cert.LibSumBlocks.block_lt n t⟩ rfl

/-- Columns 0..511 of the result: the attention-weighted question rows. -/
theorem v54_at (b : Fin 8) (n : Fin 20) (t : Fin 300) (j : Fin 512) :
    val_main_v54 (F := Ideal) x0 x1 x3 (ix4 b n t j)
      = ∑ u : Fin 64, msm (fun u' : Fin 64 => ∑ h : Fin 512, (x0 (ix4 b n t h) : EReal) * x1 (ix3 b u' h))
          (fun u' => qm x3 b u') u * x1 (ix3 b u j) := by
  have hb := b.isLt; have hn := n.isLt; have ht := t.isLt; have hj := j.isLt
  rw [val_main_v54_apply, show idx_main_v54 (ix4 b n t j) = ix3 b (tok n t) j from funext fun a => Fin.ext (by
    match a with
    | ⟨0, _⟩ => show (((b.val * 20 + n.val) * 300 + t.val) * 512 + j.val) / 3072000 = b.val; omega
    | ⟨1, _⟩ => show (((b.val * 20 + n.val) * 300 + t.val) * 512 + j.val) / 512 % 6000 = 300 * n.val + t.val; omega
    | ⟨2, _⟩ => show (((b.val * 20 + n.val) * 300 + t.val) * 512 + j.val) % 512 = j.val; omega),
    val_main_v26_apply]
  refine Finset.sum_congr rfl fun u _ => ?_
  rw [show lidx_main_v26 (ix3 b (tok n t) j) u = ix3 b (tok n t) u from
      funext fun a => by match a with | ⟨0, _⟩ => rfl | ⟨1, _⟩ => rfl | ⟨2, _⟩ => rfl,
    show ridx_main_v26 (ix3 b (tok n t) j) u = ix3 b u j from
      funext fun a => by match a with | ⟨0, _⟩ => rfl | ⟨1, _⟩ => rfl | ⟨2, _⟩ => rfl,
    attn_at]

/-- Columns 512..1023 of the result: the question-side attention applied to the attention-weighted document rows. -/
theorem v55_at (b : Fin 8) (n : Fin 20) (t : Fin 300) (j : Fin 512) :
    val_main_v55 (F := Ideal) x0 x1 x2 x3 (ix4 b n t j)
      = ∑ u : Fin 64, msm (fun u' : Fin 64 => ∑ h : Fin 512, (x0 (ix4 b n t h) : EReal) * x1 (ix3 b u' h))
          (fun u' => qm x3 b u') u
          * docAgg (fun n t h' => (x0 (ix4 b n t h') : EReal)) (fun u' h' => (x1 (ix3 b u' h') : EReal))
              (fun n t => dm x2 b n t) u j := by
  have hb := b.isLt; have hn := n.isLt; have ht := t.isLt; have hj := j.isLt
  rw [val_main_v55_apply, show idx_main_v55 (ix4 b n t j) = ix3 b (tok n t) j from funext fun a => Fin.ext (by
    match a with
    | ⟨0, _⟩ => show (((b.val * 20 + n.val) * 300 + t.val) * 512 + j.val) / 3072000 = b.val; omega
    | ⟨1, _⟩ => show (((b.val * 20 + n.val) * 300 + t.val) * 512 + j.val) / 512 % 6000 = 300 * n.val + t.val; omega
    | ⟨2, _⟩ => show (((b.val * 20 + n.val) * 300 + t.val) * 512 + j.val) % 512 = j.val; omega),
    val_main_v53_apply]
  refine Finset.sum_congr rfl fun u _ => ?_
  rw [show lidx_main_v53 (ix3 b (tok n t) j) u = ix3 b (tok n t) u from
      funext fun a => by match a with | ⟨0, _⟩ => rfl | ⟨1, _⟩ => rfl | ⟨2, _⟩ => rfl,
    show ridx_main_v53 (ix3 b (tok n t) j) u = ix3 b u j from
      funext fun a => by match a with | ⟨0, _⟩ => rfl | ⟨1, _⟩ => rfl | ⟨2, _⟩ => rfl,
    attn_at, v52_at]

/-- The reference's result is the specification's `out` of its four arguments. -/
theorem ref_out (b : Fin 8) (n : Fin 20) (t : Fin 300) (j : Fin 1024) :
    val_main_v56 (F := Ideal) x0 x1 x2 x3 (ix4 b n t j)
      = out (fun b n t h => x0 (ix4 b n t h)) (fun b u h => x1 (ix3 b u h))
          (fun b n t => FloatOps.sitofp (F := Ideal) .f32 (x2 (ix3 b n t)))
          (fun b u => FloatOps.sitofp (F := Ideal) .f32 (x3 (ix2 b u))) b n t j := by
  unfold out tokRow val_main_v56
  have e54 := v54_at x0 x1 x3 b n t
  have e55 := v55_at x0 x1 x2 x3 b n t
  generalize val_main_v54 (F := Ideal) x0 x1 x3 = A at e54 ⊢
  generalize val_main_v55 (F := Ideal) x0 x1 x2 x3 = B at e55 ⊢
  by_cases hj : j.val < 512
  · rw [dif_pos hj]
    refine (concatenate_pair_apply_left (3 : Fin S8x20x300x1024.rank) A B
      concatenates_S8x20x300x512_S8x20x300x512_S8x20x300x1024_d3 (ix4 b n t j) rfl (ix4 b n t ⟨j.val, hj⟩)
      (fun c => by match c with | ⟨0, _⟩ => rfl | ⟨1, _⟩ => rfl | ⟨2, _⟩ => rfl | ⟨3, _⟩ => rfl)).trans ?_
    exact e54 ⟨j.val, hj⟩
  · rw [dif_neg hj]
    have hj' : j.val - 512 < 512 := by have := j.isLt; omega
    refine (concatenate_pair_apply_right (3 : Fin S8x20x300x1024.rank) A B
      concatenates_S8x20x300x512_S8x20x300x512_S8x20x300x1024_d3 (ix4 b n t j) rfl rfl (ix4 b n t ⟨j.val - 512, hj'⟩)
      (fun c hc => by
        match c with
        | ⟨0, _⟩ => rfl
        | ⟨1, _⟩ => rfl
        | ⟨2, _⟩ => rfl
        | ⟨3, _⟩ => exact absurd (Fin.ext rfl) hc)
      (by show j.val - 512 + 512 = j.val; omega)).trans ?_
    exact e55 ⟨j.val - 512, hj'⟩

end Cert.CoAttn.Ref

end
-- ==== Proof.KernelRun.lean ====
/-
  The run of the idealized kernel, with its result named.

  The main function is four segments in order: a stretch of host operations, the first pallas region, the second
  pallas region, a last stretch of host operations.  Every weakly fair execution from any launch memory terminates
  without fault, and in every final state the result buffer holds the contents obtained by folding the four segments
  from the launch memory, while the four argument buffers hold what they held at launch.
-/
import proofs.«160770_j72507637891628_2_alg».proof.Proof.Gen.KernelIdeal.Frame
import Idealize.ShloMosaic.PureOps.Ideal

set_option maxRecDepth 16384

noncomputable section

namespace Cert.CoAttn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the main function on the TensorCores, from any memory with zero counters, terminates
    without fault; in every final state the result buffer holds the contents `W4` (the launch memory folded through
    the two host stretches and the two regions) and each argument buffer holds what it held at launch. -/
theorem run_result : θ_run (Cert.KernelIdeal.defs (F := Ideal)) (onTc (τ := τ) (Cert.KernelIdeal.main (F := Ideal))) ⟨m, fun _ => 0, ρ⟩
    (fun r => ∀ c : Dev nD,
      r.2.mem ((c.tc : Thread nD τ).loc main_v6) = Gen.W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.CoAttn.Run

end
-- ==== Proof.HostReads.lean ====
/-
  The host stretches of the idealized kernel's main function, read at an index.

  Before the first region the host converts the document tensor and the question tensor to a narrower float format
  (the identity on the extended reals), flattens the 20 × 300 token axes of the converted documents into one axis of
  6000, and gives the question mask a unit middle axis.  After the second region it splits the axis of 6000 back into
  20 × 300.  A reshape keeps row-major positions, so token `t` of document `n` sits at position `n·300 + t`.
  Between the stretches, each region leaves every buffer that is not one of its outputs as it found it.
-/
import proofs.«160770_j72507637891628_2_alg».proof.Proof.Gen.KernelIdeal.Frame
import Idealize.ShloMosaic.PureOps.Ideal
import Idealize.ShloMosaic.Lib.Pipeline.Value
import Idealize.ShloMosaic.Lib.ValueIdx
import Idealize.ShloMosaic.Lib.StableHlo.Run

noncomputable section

namespace Cert.CoAttn.Host

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-! ## The last stretch: the result split back into documents and tokens -/

/-- The result at document `n`, token `t` is the second region's output at the flat token position `n·300 + t`. -/
theorem result_at (c : Dev nD) (b : Fin 8) (n : Fin 20) (t : Fin 300) (j : Fin 1024) :
    (W4 m ρ c (Proc.devRef .tc main_v6) : S8x20x300x1024.Idx → EReal) (ix4 b n t j)
      = (W3 m ρ c (Proc.devRef .tc main_v5) : S8x6000x1024.Idx → EReal)
          (ix3 b (⟨n.val * 300 + t.val, by have := n.isLt; have := t.isLt; omega⟩ : Fin 6000) j) := by
  have e : (W4 m ρ c (Proc.devRef .tc main_v6) : S8x20x300x1024.Idx → EReal)
      = shapeCast S8x20x300x1024 (W3 m ρ c (Proc.devRef .tc main_v5) : S8x6000x1024.Idx → EReal)
          shapeCasts_S8x6000x1024_S8x20x300x1024 := by
    dsimp only [Gen.W4, Gen.hostOps2]; after_results; rfl
  rw [e]
  refine shapeCast_apply _ _ _ _ ?_
  show (S8x6000x1024.rowMajor (ix3 b (⟨n.val * 300 + t.val, _⟩ : Fin 6000) j)).val = (S8x20x300x1024.rowMajor (ix4 b n t j)).val
  rw [Shape.rowMajor_val_three, Shape.rowMajor_val_four]
  show (b.val * 6000 + (n.val * 300 + t.val)) * 1024 + j.val = ((b.val * 20 + n.val) * 300 + t.val) * 1024 + j.val
  have := n.isLt; have := t.isLt; omega

/-! ## The two regions: outputs as the pipelines leave them, everything else as entered -/

/-- The second region's output buffer holds what its pipeline's write-backs leave. -/
theorem region1_out (c : Dev nD) :
    W3 m ρ c (Proc.devRef .tc main_v5) = (dat1 (V2 m ρ) c).arrAt 4 cfg1.N :=
  Gen.W3_arr m ρ c 4

/-- The first region's output buffer, as the second region finds it, holds what the first pipeline's write-backs
    leave. -/
theorem region0_out (c : Dev nD) :
    V2 m ρ c main_v4 = (dat0 (V1 m ρ) c).arrAt 3 cfg0.N :=
  Gen.W2_arr m ρ c 3

/-- The flattened documents are not touched by the first region. -/
theorem docsFlat_kept (c : Dev nD) : V2 m ρ c main_v2 = V1 m ρ c main_v2 :=
  Gen.W2_of_ne m ρ c main_v2 (by decide)

/-- The reshaped question mask is not touched by the first region. -/
theorem qmask_kept (c : Dev nD) : V2 m ρ c main_v3 = V1 m ρ c main_v3 :=
  Gen.W2_of_ne m ρ c main_v3 (by decide)

/-- The converted questions are an input of the first region: it leaves them as entered. -/
theorem questions_kept (c : Dev nD) : V2 m ρ c main_v1 = V1 m ρ c main_v1 :=
  (Gen.W2_arr m ρ c 1).trans (((dat0 (V1 m ρ) c).arrAt_in 1 rfl _).trans (A_eq0 (V1 m ρ) c 1))

/-! ## The first stretch, in terms of the launch memory -/

/-- The converted documents are the documents (a format change is the identity on the extended reals). -/
theorem docs_at (c : Dev nD) (b : Fin 8) (n : Fin 20) (t : Fin 300) (h : Fin 512) :
    (V1 m ρ c main_v0 : S8x20x300x512.Idx → EReal) (ix4 b n t h)
      = (m ((c : Thread nD τ).loc main_arg0) : S8x20x300x512.Idx → EReal) (ix4 b n t h) := by
  have e : (V1 m ρ c main_v0 : S8x20x300x512.Idx → EReal)
      = (m ((c : Thread nD τ).loc main_arg0) : S8x20x300x512.Idx → EReal) := by
    dsimp only [Gen.V1, Gen.W1, Gen.hostOps0]; after_results; rfl
  rw [e]

/-- The converted questions are the questions. -/
theorem questions_at (c : Dev nD) (b : Fin 8) (u : Fin 64) (h : Fin 512) :
    (V1 m ρ c main_v1 : S8x64x512.Idx → EReal) (ix3 b u h)
      = (m ((c : Thread nD τ).loc main_arg1) : S8x64x512.Idx → EReal) (ix3 b u h) := by
  have e : (V1 m ρ c main_v1 : S8x64x512.Idx → EReal)
      = (m ((c : Thread nD τ).loc main_arg1) : S8x64x512.Idx → EReal) := by
    dsimp only [Gen.V1, Gen.W1, Gen.hostOps0]; after_results; rfl
  rw [e]

/-- The flattened documents at the flat token position `n·300 + t` are the documents at document `n`, token `t`. -/
theorem docsFlat_at (c : Dev nD) (b : Fin 8) (n : Fin 20) (t : Fin 300) (h : Fin 512) :
    (V1 m ρ c main_v2 : S8x6000x512.Idx → EReal)
        (ix3 b (⟨n.val * 300 + t.val, by have := n.isLt; have := t.isLt; omega⟩ : Fin 6000) h)
      = (m ((c : Thread nD τ).loc main_arg0) : S8x20x300x512.Idx → EReal) (ix4 b n t h) := by
  have e : (V1 m ρ c main_v2 : S8x6000x512.Idx → EReal)
      = shapeCast S8x6000x512 (m ((c : Thread nD τ).loc main_arg0) : S8x20x300x512.Idx → EReal)
          shapeCasts_S8x20x300x512_S8x6000x512 := by
    dsimp only [Gen.V1, Gen.W1, Gen.hostOps0]; after_results; rfl
  rw [e]
  refine shapeCast_apply _ _ _ _ ?_
  show (S8x20x300x512.rowMajor (ix4 b n t h)).val
    = (S8x6000x512.rowMajor (ix3 b (⟨n.val * 300 + t.val, _⟩ : Fin 6000) h)).val
  rw [Shape.rowMajor_val_three, Shape.rowMajor_val_four]
  show ((b.val * 20 + n.val) * 300 + t.val) * 512 + h.val = (b.val * 6000 + (n.val * 300 + t.val)) * 512 + h.val
  have := n.isLt; have := t.isLt; omega

/-- The question mask with a unit middle axis is the question mask. -/
theorem qmask_at (c : Dev nD) (b : Fin 8) (z : Fin 1) (u : Fin 64) :
    (V1 m ρ c main_v3 : S8x1x64.Idx → BitVec 32) (ix3 b z u)
      = (m ((c : Thread nD τ).loc main_arg3) : S8x64.Idx → BitVec 32) (ix2 b u) := by
  have e : (V1 m ρ c main_v3 : S8x1x64.Idx → BitVec 32)
      = shapeCast S8x1x64 (m ((c : Thread nD τ).loc main_arg3) : S8x64.Idx → BitVec 32) shapeCasts_S8x64_S8x1x64 := by
    dsimp only [Gen.V1, Gen.W1, Gen.hostOps0]; after_results; rfl
  rw [e]
  refine shapeCast_apply _ _ _ _ ?_
  show (S8x64.rowMajor (ix2 b u)).val = (S8x1x64.rowMajor (ix3 b z u)).val
  rw [Shape.rowMajor_val_three, Shape.rowMajor_val_two]
  show b.val * 64 + u.val = (b.val * 1 + z.val) * 64 + u.val
  have := z.isLt; omega

/-- The document mask is not written by the first stretch. -/
theorem dmask_kept (c : Dev nD) : V1 m ρ c main_arg2 = m ((c : Thread nD τ).loc main_arg2) := by
  dsimp only [Gen.V1, Gen.W1, Gen.hostOps0]; after_results

end Cert.CoAttn.Host

end
-- ==== Proof.KernelValue.lean ====
/-
  The kernel's result at an index, as the specification's `out` of the launch memory.

  The last host stretch reads the second region's output at the flat token position; the second region's output row is
  `tokRow` of the token row, the question rows, the question mask and the first region's output; the first region's
  output is `docAgg` of the documents, the question rows and the document mask; and the first host stretch only
  renames the launch arrays (format changes are the identity on the extended reals, reshapes keep row-major positions).
-/
import proofs.«160770_j72507637891628_2_alg».proof.Proof.Spec
import proofs.«160770_j72507637891628_2_alg».proof.Proof.HostReads
import proofs.«160770_j72507637891628_2_alg».proof.Proof.Gen.KernelIdeal.Frame
import Idealize.ShloMosaic.PureOps.Ideal
import Idealize.ShloMosaic.Lib.ValueIdx

noncomputable section

namespace Cert.CoAttn.Kernel

open Idealize.ShloMosaic Idealize.ShloMosaic.TcCoe Idealize.ShloMosaic.ValueIdx
open Idealize.SL Idealize.SL.Sem
open Cert.KernelIdeal Cert.KernelIdeal.Gen

/-- The second region's value: from any entry contents `V`, its output row at batch entry `b`, flat token `k` is
    `tokRow` of the token row, the question rows, the question mask and the aggregated-document matrix it finds. -/
def Final1 : Prop :=
  ∀ (V : (c : Dev nD) → (b : Ref sig .tc) → Buf (Elt Ideal) ((c : Thread nD τ).loc b)) (c : Dev nD)
    (b : Fin 8) (k : Fin 6000) (j : Fin 1024),
    ((dat1 (F := Ideal) V c).arrAt 4 cfg1.N : S8x6000x1024.Idx → EReal) (ix3 b k j)
      = tokRow (fun h => (V c main_v2 : S8x6000x512.Idx → EReal) (ix3 b k h))
          (fun u h => (V c main_v1 : S8x64x512.Idx → EReal) (ix3 b u h))
          (fun u => FloatOps.sitofp (F := Ideal) .f32 ((V c main_v3 : S8x1x64.Idx → BitVec 32) (ix3 b 0 u)))
          (fun u h => (V c main_v4 : S8x64x512.Idx → EReal) (ix3 b u h)) j

/-- The first region's value: from any entry contents `V`, its output at batch entry `b` is `docAgg` of the
    documents, the question rows and the document mask it finds. -/
def Final0 : Prop :=
  ∀ (V : (c : Dev nD) → (b : Ref sig .tc) → Buf (Elt Ideal) ((c : Thread nD τ).loc b)) (c : Dev nD)
    (b : Fin 8) (u : Fin 64) (h : Fin 512),
    ((dat0 (F := Ideal) V c).arrAt 3 cfg0.N : S8x64x512.Idx → EReal) (ix3 b u h)
      = docAgg (fun n t h' => (V c main_v0 : S8x20x300x512.Idx → EReal) (ix4 b n t h'))
          (fun u' h' => (V c main_v1 : S8x64x512.Idx → EReal) (ix3 b u' h'))
          (fun n t => FloatOps.sitofp (F := Ideal) .f32 ((V c main_arg2 : S8x20x300.Idx → BitVec 32) (ix3 b n t))) u h

/-- `tokRow` of equal arguments. -/
theorem tokRow_congr {d d' : Fin 512 → EReal} {Q Q' : Fin 64 → Fin 512 → EReal} {M M' : Fin 64 → EReal}
    {A A' : Fin 64 → Fin 512 → EReal} (hd : d = d') (hQ : Q = Q') (hM : M = M') (hA : A = A') (j : Fin 1024) :
    tokRow d Q M A j = tokRow d' Q' M' A' j := by
  subst hd hQ hM hA; rfl

/-- `docAgg` of equal arguments. -/
theorem docAgg_congr {D D' : Fin 20 → Fin 300 → Fin 512 → EReal} {Q Q' : Fin 64 → Fin 512 → EReal}
    {K K' : Fin 20 → Fin 300 → EReal} (hD : D = D') (hQ : Q = Q') (hK : K = K') (u : Fin 64) (h : Fin 512) :
    docAgg D Q K u h = docAgg D' Q' K' u h := by
  subst hD hQ hK; rfl

/-- The first region's output, as the second region finds it, is `docAgg` of the launch arrays. -/
theorem aggdoc_at (h0 : Final0) (m : (ℓ : Loc nD τ sig) → Buf (Elt Ideal) ℓ) (ρ : Dev nD → PrngReg) (c : Dev nD)
    (b : Fin 8) (u : Fin 64) (h : Fin 512) :
    (V2 m ρ c main_v4 : S8x64x512.Idx → EReal) (ix3 b u h)
      = docAgg (fun n t h' => (m ((c : Thread nD τ).loc main_arg0) : S8x20x300x512.Idx → EReal) (ix4 b n t h'))
          (fun u' h' => (m ((c : Thread nD τ).loc main_arg1) : S8x64x512.Idx → EReal) (ix3 b u' h'))
          (fun n t => FloatOps.sitofp (F := Ideal) .f32
            ((m ((c : Thread nD τ).loc main_arg2) : S8x20x300.Idx → BitVec 32) (ix3 b n t))) u h :=
  (congrFun (Host.region0_out m ρ c) (ix3 b u h)).trans <| (h0 (V1 m ρ) c b u h).trans <|
    docAgg_congr
      (funext fun n => funext fun t => funext fun h' => Host.docs_at m ρ c b n t h')
      (funext fun u' => funext fun h' => Host.questions_at m ρ c b u' h')
      (funext fun n => funext fun t => congrArg (FloatOps.sitofp (F := Ideal) .f32)
        (congrFun (Host.dmask_kept m ρ c) (ix3 b n t))) u h

/-- The kernel's result at batch entry `b`, document `n`, token `t`, column `j`. -/
theorem kernel_out (h1 : Final1) (h0 : Final0) (m : (ℓ : Loc nD τ sig) → Buf (Elt Ideal) ℓ) (ρ : Dev nD → PrngReg)
    (c : Dev nD) (b : Fin 8) (n : Fin 20) (t : Fin 300) (j : Fin 1024) :
    (W4 m ρ c (Proc.devRef .tc main_v6) : S8x20x300x1024.Idx → EReal) (ix4 b n t j)
      = out (fun b n t h => (m ((c : Thread nD τ).loc main_arg0) : S8x20x300x512.Idx → EReal) (ix4 b n t h))
          (fun b u h => (m ((c : Thread nD τ).loc main_arg1) : S8x64x512.Idx → EReal) (ix3 b u h))
          (fun b n t => FloatOps.sitofp (F := Ideal) .f32
            ((m ((c : Thread nD τ).loc main_arg2) : S8x20x300.Idx → BitVec 32) (ix3 b n t)))
          (fun b u => FloatOps.sitofp (F := Ideal) .f32
            ((m ((c : Thread nD τ).loc main_arg3) : S8x64.Idx → BitVec 32) (ix2 b u))) b n t j :=
  (Host.result_at m ρ c b n t j).trans <| (congrFun (Host.region1_out m ρ c) _).trans <|
    (h1 (V2 m ρ) c b _ j).trans <|
    tokRow_congr
      (funext fun h => (congrFun (Host.docsFlat_kept m ρ c) _).trans (Host.docsFlat_at m ρ c b n t h))
      (funext fun u => funext fun h => (congrFun (Host.questions_kept m ρ c) _).trans (Host.questions_at m ρ c b u h))
      (funext fun u => congrArg (FloatOps.sitofp (F := Ideal) .f32)
        ((congrFun (Host.qmask_kept m ρ c) _).trans (Host.qmask_at m ρ c b 0 u)))
      (funext fun u => funext fun h => aggdoc_at h0 m ρ c b u h) j

/-- The kernel's whole result array. -/
theorem kernel_result (h1 : Final1) (h0 : Final0) (m : (ℓ : Loc nD τ sig) → Buf (Elt Ideal) ℓ) (ρ : Dev nD → PrngReg)
    (c : Dev nD) :
    W4 m ρ c (Proc.devRef .tc main_v6)
      = (fun i : S8x20x300x1024.Idx =>
          out (fun b n t h => (m ((c : Thread nD τ).loc main_arg0) : S8x20x300x512.Idx → EReal) (ix4 b n t h))
            (fun b u h => (m ((c : Thread nD τ).loc main_arg1) : S8x64x512.Idx → EReal) (ix3 b u h))
            (fun b n t => FloatOps.sitofp (F := Ideal) .f32
              ((m ((c : Thread nD τ).loc main_arg2) : S8x20x300.Idx → BitVec 32) (ix3 b n t)))
            (fun b u => FloatOps.sitofp (F := Ideal) .f32
              ((m ((c : Thread nD τ).loc main_arg3) : S8x64.Idx → BitVec 32) (ix2 b u))) (i 0) (i 1) (i 2) (i 3)) := by
  funext i
  obtain ⟨b, n, t, j, rfl⟩ : ∃ (b : Fin 8) (n : Fin 20) (t : Fin 300) (j : Fin 1024), i = ix4 b n t j :=
    ⟨i 0, i 1, i 2, i 3, eq_ix4 i⟩
  exact kernel_out h1 h0 m ρ c b n t j

end Cert.CoAttn.Kernel

end
-- ==== Proof.Region0Run.lean ====
/-
  Region 0 accumulates, for one batch entry, the 64 × 512 matrix of attention-weighted document rows in a scratch
  buffer: the scratch is filled with zeros, then each of the 20 documents adds its own contribution (the scratch is
  read, the document's 64 × 512 contribution is added, the sum is stored back over the whole scratch), and at the end
  the scratch is copied to the output block.  Every store covers the whole scratch, so what a later read finds is what
  the last store put there.  Hence the output block is the 20-fold iteration of one step
  `acc ↦ acc + contribution(document n)` from the zero matrix, document 0 first.
-/
import proofs.«160770_j72507637891628_2_alg».proof.Proof.Gen.KernelIdeal.Frame
import Idealize.ShloMosaic.Lib.Pipeline.Value

noncomputable section

namespace Cert.CoAttn.R0

open Idealize.ShloMosaic Idealize.ShloMosaic.TcCoe Idealize.SL.Sem
open Cert.KernelIdeal Cert.KernelIdeal.Gen

variable {F : FTy → Type} [FloatOps F]

/-- Document `n`'s rows lie inside the batch entry's block. -/
theorem docInb (n : Fin 20) : ∀ a, (![0, n.val, 0, 0] : Fin S1x20x300x512.rank → Nat) a + S1x1x300x512.size a ≤ S1x20x300x512.size a := by
  intro a; have := n.isLt
  match a with
  | ⟨0, _⟩ => show 0 + 1 ≤ 1; omega
  | ⟨1, _⟩ => show n.val + 1 ≤ 20; omega
  | ⟨2, _⟩ => show 0 + 300 ≤ 300; omega
  | ⟨3, _⟩ => show 0 + 512 ≤ 512; omega

/-- Document `n`'s mask row lies inside the batch entry's mask block. -/
theorem mskInb (n : Fin 20) : ∀ a, (![0, n.val, 0] : Fin S1x20x300.rank → Nat) a + S1x1x300.size a ≤ S1x20x300.size a := by
  intro a; have := n.isLt
  match a with
  | ⟨0, _⟩ => show 0 + 1 ≤ 1; omega
  | ⟨1, _⟩ => show n.val + 1 ≤ 20; omega
  | ⟨2, _⟩ => show 0 + 300 ≤ 300; omega

/-- The zero offsets of a rank-3 block, as the constant function. -/
theorem zero3 : (![0, 0, 0] : Fin S1x64x512.rank → Nat) = fun _ => 0 := by
  funext a; match a with | ⟨0, _⟩ => rfl | ⟨1, _⟩ => rfl | ⟨2, _⟩ => rfl

/-- One step: the scratch contents `acc` plus the contribution of one document (its rows `d`, its mask `mk`)
    against the question block `qraw`. -/
def step (qraw : Vec F S1x64x512 .bf16) (d : Vec F S1x1x300x512 .bf16) (mk : Vec F S1x1x300 .i32)
    (acc : Vec F S64x512 .f32) : FVec F S64x512 .f32 :=
  k0_pay6 (k0_pay4 d) (k0_pay5 qraw d mk) acc

section Run

variable (c : Dev nD) (arg1 : Memref sig .tc .vmem S1x20x300x512 .bf16) (harg1 : arg1.IsWhole)
  (arg2 : Memref sig .tc .vmem S1x64x512 .bf16) (harg2 : arg2.IsWhole)
  (arg3 : Memref sig .tc .vmem S1x20x300 .i32) (harg3 : arg3.IsWhole)
  (arg5 : Memref sig .tc .vmem S64x512 .f32)
  (x0 : Vec F S1x20x300x512 .bf16) (x1 : Vec F S1x64x512 .bf16) (x2 : Vec F S1x20x300 .i32)

/-- The question block as the body loads it. -/
def qld : Vec F S1x64x512 .bf16 :=
  View.readAt (Elt F) arg2.view (Rect.unit (s := S1x64x512) ![0, 0, 0] S1x64x512.size inb_S1x64x512_S1x64x512_0_0_0).toLoadRect (harg2.unread x1)

/-- Document `n`'s rows as the body loads them. -/
def dld (n : Fin 20) : Vec F S1x1x300x512 .bf16 :=
  View.readAt (Elt F) arg1.view (Rect.unit (s := S1x20x300x512) ![0, n.val, 0, 0] S1x1x300x512.size (docInb n)).toLoadRect (harg1.unread x0)

/-- Document `n`'s mask row as the body loads it. -/
def mld (n : Fin 20) : Vec F S1x1x300 .i32 :=
  View.readAt (Elt F) arg3.view (Rect.unit (s := S1x20x300) ![0, n.val, 0] S1x1x300.size (mskInb n)).toLoadRect (harg3.unread x2)

/-- The scratch after the first `n` documents. -/
def accN : ℕ → FVec F S64x512 .f32
  | 0 => k0_pay2
  | n + 1 => if h : n < 20 then
      step (qld arg2 harg2 x1) (dld arg1 harg1 x0 ⟨n, h⟩) (mld arg3 harg3 x2 ⟨n, h⟩) (accN n)
    else accN n

/-- The first read of the scratch finds the zero fill. -/
theorem acc_0 : kernelRun0_A.sl.v40 (F := F) c arg5 = accN arg1 harg1 arg2 harg2 arg3 harg3 x0 x1 x2 0 := by
  unfold kernelRun0_A.sl.v40 kernelRun0_A.sl.HS0_1
  exact View.readCov_cons_toLoadRect _ _ _ _

/-! Each later read of the scratch finds the previous read plus one document's contribution: the read is of a list of
    stores whose last one covers the whole scratch, so it finds that store's value, and that value is one step applied
    to the previous read.  The statement is the same for every document; only the names under which the run recorded
    the reads differ. -/

set_option hygiene false in
/-- `acc_step thm prev n : read names…` states that the read named first is the scratch after `n` documents, from the
    same fact `prev` for `n - 1`; the further names are the run's definitions the read's value is recorded under. -/
local macro "acc_step " nm:ident prev:ident n:num " : " v:ident rest:ident* : command =>
  `(theorem $nm : $v (F := F) c arg1 harg1 arg2 harg2 arg3 harg3 arg5 x0 x1 x2
        = accN arg1 harg1 arg2 harg2 arg3 harg3 x0 x1 x2 $n := by
      unfold $v $rest*
      refine (View.readCov_cons_toLoadRect _ _ _ _).trans ?_
      rw [$prev:ident]
      rfl)

acc_step acc_1 acc_0 1 : kernelRun0_A.sl.v79 kernelRun0_A.sl.HS0_2
acc_step acc_2 acc_1 2 : kernelRun0_A.sl.v118 kernelRun0_A.sl.HS0_3
acc_step acc_3 acc_2 3 : kernelRun0_A.sl.v157 kernelRun0_A.sl.HS0_4
acc_step acc_4 acc_3 4 : kernelRun0_A.sl.v196 kernelRun0_A.sl.HS0_5
acc_step acc_5 acc_4 5 : kernelRun0_A.sl.v235 kernelRun0_A.sl.HS0_6
acc_step acc_6 acc_5 6 : kernelRun0_A.sl.v274 kernelRun0_A.sl.HS0_7
acc_step acc_7 acc_6 7 : kernelRun0_A.sl.v313 kernelRun0_A.sl.HS0_8
acc_step acc_8 acc_7 8 : kernelRun0_A.sl.v352 kernelRun0_A.sl.HS0_9 kernelRun0_A.sl.r_11
acc_step acc_9 acc_8 9 : kernelRun0_A.sl.v391 kernelRun0_A.sl.HS0_10 kernelRun0_A.sl.r_12
acc_step acc_10 acc_9 10 : kernelRun0_A.sl.v430 kernelRun0_A.sl.HS0_11 kernelRun0_A.sl.r_13
acc_step acc_11 acc_10 11 : kernelRun0_A.sl.v469 kernelRun0_A.sl.HS0_12 kernelRun0_A.sl.r_14
acc_step acc_12 acc_11 12 : kernelRun0_A.sl.v508 kernelRun0_A.sl.HS0_13 kernelRun0_A.sl.r_15
acc_step acc_13 acc_12 13 : kernelRun0_A.sl.v547 kernelRun0_A.sl.HS0_14 kernelRun0_A.sl.r_16
acc_step acc_14 acc_13 14 : kernelRun0_A.sl.v586 kernelRun0_A.sl.HS0_15
acc_step acc_15 acc_14 15 : kernelRun0_A.sl.v625 kernelRun0_A.sl.HS0_16
acc_step acc_16 acc_15 16 : kernelRun0_A.sl.v664 kernelRun0_A.sl.HS0_17
acc_step acc_17 acc_16 17 : kernelRun0_A.sl.v703 kernelRun0_A.sl.HS0_18
acc_step acc_18 acc_17 18 : kernelRun0_A.sl.v742 kernelRun0_A.sl.HS0_19
acc_step acc_19 acc_18 19 : kernelRun0_A.sl.v781 kernelRun0_A.sl.HS0_20
acc_step acc_20 acc_19 20 : kernelRun0_A.sl.v kernelRun0_A.sl.HS0_21

/-- What the body leaves in the output block: the scratch after all 20 documents, re-laid with a leading unit axis. -/
theorem out0_eq (i : grid0.Coords) (arg4 : Memref sig .tc .vmem S1x64x512 .f32) (harg4 : arg4.IsWhole) (harg5 : arg5.IsWhole) :
    out0_A_3 (F := F) c i arg1 harg1 arg2 harg2 arg3 harg3 arg4 harg4 arg5 harg5 x0 x1 x2
      = k0_pay1 (accN arg1 harg1 arg2 harg2 arg3 harg3 x0 x1 x2 20) := by
  unfold out0_A_3
  rw [View.read_writes_eq_canon _ _ _ (cover0_A_3 c i arg1 harg1 arg2 harg2 arg3 harg3 arg4 harg4 arg5 harg5 x0 x1 x2)]
  unfold kernelRun0_A
  dsimp only
  rw [View.canon_unit_zero zero3, acc_20]

end Run

end Cert.CoAttn.R0

end
-- ==== Proof.Region0Value.lean ====
/-
  Region 0's output block, index by index, on the extended reals.

  One step adds to the scratch, at row `u` and column `h`, the sum over the document's 300 tokens of the masked-softmax
  attention of question position `u` over those tokens times the token's feature `h`.  The scratch starts at zero and
  the documents are added one after the other, so after `n` documents it holds the sum of the first `n` documents'
  terms; after all 20 it is the matrix `docAgg` of the specification.  The loaded slices are the batch entry's block
  read at document `n`.
-/
import proofs.«160770_j72507637891628_2_alg».proof.Proof.Spec
import proofs.«160770_j72507637891628_2_alg».proof.Proof.Region0Run
import Idealize.ShloMosaic.PureOps.Ideal.Laws
import Idealize.ShloMosaic.Lib.ValueIdx
import Idealize.ShloMosaic.Lib.Pipeline.Value

noncomputable section

namespace Cert.CoAttn.R0

open Idealize.ShloMosaic Idealize.ShloMosaic.TcCoe Idealize.ShloMosaic.ValueIdx Idealize.SL.Sem
open Cert.KernelIdeal Cert.KernelIdeal.Gen

/-- What one step does at an index: to the scratch's entry at row `u`, column `h` it adds the sum over the document's
    300 tokens of the masked-softmax attention of question position `u` over those tokens times the token's feature `h`. -/
def TripAt : Prop :=
  ∀ (qraw : Vec Ideal S1x64x512 .bf16) (d : Vec Ideal S1x1x300x512 .bf16) (mk : Vec Ideal S1x1x300 .i32)
    (acc : Vec Ideal S64x512 .f32) (u : Fin 64) (h : Fin 512),
    (k0_pay6 (F := Ideal) (k0_pay4 d) (k0_pay5 qraw d mk) acc : S64x512.Idx → EReal) (ix2 u h)
      = acc (ix2 u h) + ∑ t : Fin 300, Cert.CoAttn.msm (fun t' => ∑ h' : Fin 512, d (ix4 0 0 t' h') * qraw (ix3 0 u h'))
          (fun t' => FloatOps.sitofp (F := Ideal) .f32 (mk (ix3 0 0 t'))) t * d (ix4 0 0 t h)

section Block

variable (arg1 : Memref sig .tc .vmem S1x20x300x512 .bf16) (harg1 : arg1.IsWhole)
  (arg2 : Memref sig .tc .vmem S1x64x512 .bf16) (harg2 : arg2.IsWhole)
  (arg3 : Memref sig .tc .vmem S1x20x300 .i32) (harg3 : arg3.IsWhole)
  (x0 : Vec Ideal S1x20x300x512 .bf16) (x1 : Vec Ideal S1x64x512 .bf16) (x2 : Vec Ideal S1x20x300 .i32)

/-- The loaded question block is the block. -/
theorem qld_eq : qld (F := Ideal) arg2 harg2 x1 = x1 := by
  unfold qld
  rw [View.readAt_eq_ld, harg2.read_unread]
  exact View.ld_unit_zero zero3 _ x1

/-- Document `n`'s loaded rows are rows `(n, ·)` of the block. -/
theorem dld_apply (n : Fin 20) (t : Fin 300) (h : Fin 512) :
    dld (F := Ideal) arg1 harg1 x0 n (ix4 0 0 t h) = x0 (ix4 0 n t h) := by
  unfold dld
  rw [View.readAt_eq_ld, harg1.read_unread]
  show x0 _ = x0 _
  refine congrArg x0 (funext fun a => Fin.ext ?_)
  match a with
  | ⟨0, _⟩ => rfl
  | ⟨1, _⟩ => show n.val + 1 * 0 = n.val; omega
  | ⟨2, _⟩ => show 0 + 1 * t.val = t.val; omega
  | ⟨3, _⟩ => show 0 + 1 * h.val = h.val; omega

/-- Document `n`'s loaded mask row is row `n` of the mask block. -/
theorem mld_apply (n : Fin 20) (t : Fin 300) :
    mld (F := Ideal) arg3 harg3 x2 n (ix3 0 0 t) = x2 (ix3 0 n t) := by
  unfold mld
  rw [View.readAt_eq_ld, harg3.read_unread]
  show x2 _ = x2 _
  refine congrArg x2 (funext fun a => Fin.ext ?_)
  match a with
  | ⟨0, _⟩ => rfl
  | ⟨1, _⟩ => show n.val + 1 * 0 = n.val; omega
  | ⟨2, _⟩ => show 0 + 1 * t.val = t.val; omega

/-- Document `n`'s term at row `u`, column `h` (zero past the last document). -/
def docTerm (n : ℕ) (u : Fin 64) (h : Fin 512) : EReal :=
  if hn : n < 20 then
    ∑ t : Fin 300, Cert.CoAttn.msm (fun t' => ∑ h' : Fin 512, x0 (ix4 0 ⟨n, hn⟩ t' h') * x1 (ix3 0 u h'))
      (fun t' => FloatOps.sitofp (F := Ideal) .f32 (x2 (ix3 0 ⟨n, hn⟩ t'))) t * x0 (ix4 0 ⟨n, hn⟩ t h)
  else 0

/-- The zero fill reads zero. -/
theorem zero_apply (u : Fin 64) (h : Fin 512) : (k0_pay2 (F := Ideal) : S64x512.Idx → EReal) (ix2 u h) = 0 := by
  unfold k0_pay2
  rw [shapeCast_self]
  exact Ideal.ofBits_zero_f32

/-- The scratch after the first `n` documents holds the sum of their terms. -/
theorem accN_apply (htrip : TripAt) (u : Fin 64) (h : Fin 512) :
    ∀ n : ℕ, (accN (F := Ideal) arg1 harg1 arg2 harg2 arg3 harg3 x0 x1 x2 n : S64x512.Idx → EReal) (ix2 u h)
      = ∑ n' ∈ Finset.range n, docTerm x0 x1 x2 n' u h
  | 0 => by
    rw [Finset.range_zero, Finset.sum_empty]
    exact zero_apply u h
  | n + 1 => by
    rw [Finset.sum_range_succ, ← accN_apply htrip u h n]
    by_cases hn : n < 20
    · rw [accN, dif_pos hn]
      unfold step
      rw [htrip, qld_eq, docTerm, dif_pos hn]
      simp only [dld_apply, mld_apply]
    · rw [accN, dif_neg hn, docTerm, dif_neg hn, add_zero]

/-- The output block at row `u`, column `h`: the attention-weighted document rows of the specification, over the
    batch entry's own blocks. -/
theorem block_value (htrip : TripAt) (c : Dev nD) (i : grid0.Coords)
    (arg4 : Memref sig .tc .vmem S1x64x512 .f32) (harg4 : arg4.IsWhole)
    (arg5 : Memref sig .tc .vmem S64x512 .f32) (harg5 : arg5.IsWhole) (u : Fin 64) (h : Fin 512) :
    (out0_A_3 (F := Ideal) c i arg1 harg1 arg2 harg2 arg3 harg3 arg4 harg4 arg5 harg5 x0 x1 x2 : S1x64x512.Idx → EReal) (ix3 0 u h)
      = Cert.CoAttn.docAgg (fun n t h' => x0 (ix4 0 n t h')) (fun u' h' => x1 (ix3 0 u' h'))
          (fun n t => FloatOps.sitofp (F := Ideal) .f32 (x2 (ix3 0 n t))) u h := by
  rw [out0_eq]
  unfold k0_pay1
  rw [shapeCast_apply _ _ (ix3 0 u h) (ix2 u h) (by
    rw [Shape.rowMajor_val_two, Shape.rowMajor_val_three]
    show u.val * 512 + h.val = ((0 : Fin 1).val * 64 + u.val) * 512 + h.val
    simp)]
  rw [accN_apply arg1 harg1 arg2 harg2 arg3 harg3 x0 x1 x2 htrip u h 20]
  unfold Cert.CoAttn.docAgg
  rw [← Fin.sum_univ_eq_sum_range (fun n' => docTerm x0 x1 x2 n' u h) 20]
  refine Finset.sum_congr rfl fun n _ => ?_
  rw [docTerm, dif_pos n.isLt]

end Block

end Cert.CoAttn.R0

end
-- ==== Proof.Region0.lean ====
/-
  The first region of the kernel, read as a value.  Its grid has 8 points, one per batch entry: point `b` reads entry
  `b` of the document array (20 documents of 300 token rows), of the question rows and of the document mask, and
  writes entry `b` of the 8 × 64 × 512 array of aggregated documents.  What the body leaves in the output's staging
  buffer is, entry by entry, the specification's `docAgg` of the three input blocks; each point therefore writes back
  the block of ONE function of the three arrays, and the 8 blocks tile the result, so after the region the result array
  is that function.
-/
import proofs.«160770_j72507637891628_2_alg».proof.Proof.Region0Value
import proofs.«160770_j72507637891628_2_alg».proof.Proof.Gen.KernelIdeal.Frame
import Idealize.ShloMosaic.Lib.ValueIdx
import Idealize.ShloMosaic.Lib.Pipeline.Value

set_option synthInstance.maxSize 4096
set_option maxRecDepth 16384
noncomputable section

namespace Cert.CoAttn.R0

open Idealize.ShloMosaic Idealize.ShloMosaic.ValueIdx Cert.KernelIdeal Cert.KernelIdeal.Gen
open Idealize.ShloMosaic.TcCoe Idealize.SL.Sem
open Idealize.ShloMosaic.Pipeline (Dat)
open scoped BigOperators

/-! ## The aggregated-document array as one function of the three arrays the region reads -/

/-- Entry (b, u, h) of the 8 × 64 × 512 result: the specification's `docAgg` of batch entry `b`'s documents, question
    rows and document mask, at question position `u` and feature `h`. -/
def arrG0 (a0 : S8x20x300x512.Idx → EReal) (a1 : S8x64x512.Idx → EReal) (a2 : S8x20x300.Idx → BitVec 32) :
    S8x64x512.Idx → EReal := fun i =>
  docAgg (fun n t h' => a0 (ix4 (⟨(i 0).val, (i 0).isLt⟩ : Fin 8) n t h'))
    (fun u' h' => a1 (ix3 (⟨(i 0).val, (i 0).isLt⟩ : Fin 8) u' h'))
    (fun n t => FloatOps.sitofp (F := Ideal) .f32 (a2 (ix3 (⟨(i 0).val, (i 0).isLt⟩ : Fin 8) n t)))
    (⟨(i 1).val, (i 1).isLt⟩ : Fin 64) (⟨(i 2).val, (i 2).isLt⟩ : Fin 512)

/-- What the body leaves in the output's staging buffer agrees with the array's function wherever the three input blocks
    are the arrays' entries of batch entry `b`. -/
theorem block_eq_arr (htrip : TripAt) (c : Dev nD) (i : grid0.Coords)
    (arg1 : Memref sig .tc .vmem S1x20x300x512 .bf16) (harg1 : arg1.IsWhole) (arg2 : Memref sig .tc .vmem S1x64x512 .bf16) (harg2 : arg2.IsWhole)
    (arg3 : Memref sig .tc .vmem S1x20x300 .i32) (harg3 : arg3.IsWhole) (arg4 : Memref sig .tc .vmem S1x64x512 .f32) (harg4 : arg4.IsWhole)
    (arg5 : Memref sig .tc .vmem S64x512 .f32) (harg5 : arg5.IsWhole)
    (x0 : Vec Ideal S1x20x300x512 .bf16) (x1 : Vec Ideal S1x64x512 .bf16) (x2 : Vec Ideal S1x20x300 .i32)
    (a0 : S8x20x300x512.Idx → EReal) (a1 : S8x64x512.Idx → EReal) (a2 : S8x20x300.Idx → BitVec 32)
    (b : Fin 8) (y : S1x64x512.Idx) (k : S8x64x512.Idx)
    (hk0 : (k 0).val = b.val) (hk1 : (k 1).val = (y 1).val) (hk2 : (k 2).val = (y 2).val)
    (hx0 : ∀ (n : Fin 20) (t : Fin 300) (h : Fin 512), x0 (ix4 (0 : Fin 1) n t h) = a0 (ix4 b n t h))
    (hx1 : ∀ (u : Fin 64) (h : Fin 512), x1 (ix3 (0 : Fin 1) u h) = a1 (ix3 b u h))
    (hx2 : ∀ (n : Fin 20) (t : Fin 300), x2 (ix3 (0 : Fin 1) n t) = a2 (ix3 b n t)) :
    (out0_A_3 (F := Ideal) c i arg1 harg1 arg2 harg2 arg3 harg3 arg4 harg4 arg5 harg5 x0 x1 x2 : S1x64x512.Idx → EReal) y
      = arrG0 a0 a1 a2 k := by
  obtain ⟨z, u, h, rfl⟩ : ∃ (z : Fin 1) (u : Fin 64) (h : Fin 512), y = ix3 z u h := ⟨y 0, y 1, y 2, eq_ix3 y⟩
  obtain rfl : z = 0 := Subsingleton.elim _ _
  refine (block_value (arg1 := arg1) (harg1 := harg1) (arg2 := arg2) (harg2 := harg2) (arg3 := arg3) (harg3 := harg3)
    (x0 := x0) (x1 := x1) (x2 := x2) (c := c) (i := i) (arg4 := arg4) (harg4 := harg4) (arg5 := arg5) (harg5 := harg5)
    (u := u) (h := h) htrip).trans ?_
  have e0 : (⟨(k 0).val, (k 0).isLt⟩ : Fin 8) = b := Fin.ext hk0
  have e1 : (⟨(k 1).val, (k 1).isLt⟩ : Fin 64) = u := Fin.ext hk1
  have e2 : (⟨(k 2).val, (k 2).isLt⟩ : Fin 512) = h := Fin.ext hk2
  unfold arrG0
  rw [e0, e1, e2]
  have f0 : (fun (n : Fin 20) (t : Fin 300) (h' : Fin 512) => x0 (ix4 (0 : Fin 1) n t h'))
      = fun (n : Fin 20) (t : Fin 300) (h' : Fin 512) => a0 (ix4 b n t h') :=
    funext fun n => funext fun t => funext fun h' => hx0 n t h'
  have f1 : (fun (u' : Fin 64) (h' : Fin 512) => x1 (ix3 (0 : Fin 1) u' h')) = fun (u' : Fin 64) (h' : Fin 512) => a1 (ix3 b u' h') :=
    funext fun u' => funext fun h' => hx1 u' h'
  have f2 : (fun (n : Fin 20) (t : Fin 300) => FloatOps.sitofp (F := Ideal) .f32 (x2 (ix3 (0 : Fin 1) n t)))
      = fun (n : Fin 20) (t : Fin 300) => FloatOps.sitofp (F := Ideal) .f32 (a2 (ix3 b n t)) :=
    funext fun n => funext fun t => congrArg (FloatOps.sitofp (F := Ideal) .f32) (hx2 n t)
  rw [f0, f1, f2]

/-! ## The windows' block indices over the 8 grid points, and the blocks read off their arrays -/

/-- Point `t` of the grid is batch entry `t`: every window's block index is `t` on the batch axis and 0 elsewhere. -/
theorem idx_facts0 : ∀ t : Fin cfg0.N,
    win0_3.index t (0 : Fin 3) = t.val ∧ win0_3.index t (1 : Fin 3) = 0 ∧ win0_3.index t (2 : Fin 3) = 0
    ∧ win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The document window's block at a point: batch entry `b` of the document array. -/
theorem read0 (V : (c : Dev nD) → (b : Ref sig .tc) → Buf (Elt Ideal) ((c : Thread nD τ).loc b)) (c : Dev nD) (t : Fin cfg0.N) (b : Fin 8)
    (hb : win0_0.index t (0 : Fin 4) = b.val) (h1 : win0_0.index t (1 : Fin 4) = 0) (h2 : win0_0.index t (2 : Fin 4) = 0)
    (h3 : win0_0.index t (3 : Fin 4) = 0) (n : Fin 20) (tk : Fin 300) (h : Fin 512) :
    (iblk0 V c 0 t : Vec Ideal S1x20x300x512 .bf16) (ix4 (0 : Fin 1) n tk h)
      = (V c main_v0 : S8x20x300x512.Idx → EReal) (ix4 b n tk h) := by
  unfold iblk0
  rw [View.read_apply]
  show V c main_v0 _ = V c main_v0 _
  refine congrArg (V c main_v0) (funext fun a => Fin.ext ?_)
  match a with
  | ⟨0, _⟩ => show win0_0.index t (0 : Fin 4) * 1 + 1 * 0 = b.val; rw [hb]; omega
  | ⟨1, _⟩ => show win0_0.index t (1 : Fin 4) * 20 + 1 * n.val = n.val; rw [h1]; omega
  | ⟨2, _⟩ => show win0_0.index t (2 : Fin 4) * 300 + 1 * tk.val = tk.val; rw [h2]; omega
  | ⟨3, _⟩ => show win0_0.index t (3 : Fin 4) * 512 + 1 * h.val = h.val; rw [h3]; omega

/-- The question window's block at a point: batch entry `b` of the question array. -/
theorem read1 (V : (c : Dev nD) → (b : Ref sig .tc) → Buf (Elt Ideal) ((c : Thread nD τ).loc b)) (c : Dev nD) (t : Fin cfg0.N) (b : Fin 8)
    (hb : win0_1.index t (0 : Fin 3) = b.val) (h1 : win0_1.index t (1 : Fin 3) = 0) (h2 : win0_1.index t (2 : Fin 3) = 0)
    (u : Fin 64) (h : Fin 512) :
    (iblk0 V c 1 t : Vec Ideal S1x64x512 .bf16) (ix3 (0 : Fin 1) u h) = (V c main_v1 : S8x64x512.Idx → EReal) (ix3 b u h) := by
  unfold iblk0
  rw [View.read_apply]
  show V c main_v1 _ = V c main_v1 _
  refine congrArg (V c main_v1) (funext fun a => Fin.ext ?_)
  match a with
  | ⟨0, _⟩ => show win0_1.index t (0 : Fin 3) * 1 + 1 * 0 = b.val; rw [hb]; omega
  | ⟨1, _⟩ => show win0_1.index t (1 : Fin 3) * 64 + 1 * u.val = u.val; rw [h1]; omega
  | ⟨2, _⟩ => show win0_1.index t (2 : Fin 3) * 512 + 1 * h.val = h.val; rw [h2]; omega

/-- The document-mask window's block at a point: batch entry `b` of the document mask. -/
theorem read2 (V : (c : Dev nD) → (b : Ref sig .tc) → Buf (Elt Ideal) ((c : Thread nD τ).loc b)) (c : Dev nD) (t : Fin cfg0.N) (b : Fin 8)
    (hb : win0_2.index t (0 : Fin 3) = b.val) (h1 : win0_2.index t (1 : Fin 3) = 0) (h2 : win0_2.index t (2 : Fin 3) = 0)
    (n : Fin 20) (tk : Fin 300) :
    (iblk0 V c 2 t : Vec Ideal S1x20x300 .i32) (ix3 (0 : Fin 1) n tk) = (V c main_arg2 : S8x20x300.Idx → BitVec 32) (ix3 b n tk) := by
  unfold iblk0
  rw [View.read_apply]
  show V c main_arg2 _ = V c main_arg2 _
  refine congrArg (V c main_arg2) (funext fun a => Fin.ext ?_)
  match a with
  | ⟨0, _⟩ => show win0_2.index t (0 : Fin 3) * 1 + 1 * 0 = b.val; rw [hb]; omega
  | ⟨1, _⟩ => show win0_2.index t (1 : Fin 3) * 20 + 1 * n.val = n.val; rw [h1]; omega
  | ⟨2, _⟩ => show win0_2.index t (2 : Fin 3) * 300 + 1 * tk.val = tk.val; rw [h2]; omega

/-! ## What each point writes back, the cover, and the array after the region -/

/-- Point `t` writes back block `t` of the array's function. -/
theorem flushed_eq0 (htrip : TripAt) (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (arrG0 (V c main_v0) (V c main_v1) (V c main_arg2)) := by
  show (cfg0.win 3).cut (grid0.coords t) ((dat0 (F := Ideal) V c).after 3 t) = _
  rw [after0_3]
  unfold outsAt0
  obtain ⟨e30, e31, e32, e00, e01, e02, e03, e10, e11, e12, e20, e21, e22⟩ := idx_facts0 t
  have hN : t.val < 8 := lt_of_lt_of_eq t.isLt (show cfg0.N = 8 from N_0)
  funext j
  refine block_eq_arr htrip c (grid0.coords t) (ms0_0 t) (hs0_0 t) (ms0_1 t) (hs0_1 t) (ms0_2 t) (hs0_2 t) (ms0_3 t) (hs0_3 t)
    scM0_0 (Memref.isWhole_whole _) (iblk0 V c 0 t) (iblk0 V c 1 t) (iblk0 V c 2 t)
    (V c main_v0) (V c main_v1) (V c main_arg2) (⟨t.val, hN⟩ : Fin 8) _ _ ?_ ?_ ?_
    (fun n tk h => read0 V c t _ e00 e01 e02 e03 n tk h) (fun u h => read1 V c t _ e10 e11 e12 u h)
    (fun n tk => read2 V c t _ e20 e21 e22 n tk)
  · show win0_3.index t (0 : Fin 3) * 1 + 1 * (j 0).val = t.val
    have : (j 0).val < 1 := (j 0).isLt
    rw [e30]; omega
  · show win0_3.index t (1 : Fin 3) * 64 + 1 * (j 1).val = (j 1).val
    rw [e31]; omega
  · show win0_3.index t (2 : Fin 3) * 512 + 1 * (j 2).val = (j 2).val
    rw [e32]; omega

/-- An index of the result array is in point `t`'s block iff each coordinate is in the block's range on its axis. -/
theorem mem_blk0 (t : Fin cfg0.N) (i : S8x64x512.Idx) :
    i ∈ ((cfg0.win 3).blk t).view.set
      ↔ ∀ a : Fin 3, win0_3.index t a * S1x64x512.size a ≤ (i a).val
          ∧ (i a).val < win0_3.index t a * S1x64x512.size a + S1x64x512.size a := by
  show i ∈ ((View.whole main_v4).slice (win0_3.rect t)).set ↔ _
  rw [View.set_slice_whole, Rect.mem_set_unit]
  exact Iff.rfl

/-- Every entry of the result is written back by some point: batch entry `b` by point `b`. -/
theorem cover0 (i : S8x64x512.Idx) :
    ∃ t : Fin cfg0.N, (cfg0.win 3).flush t = true ∧ i ∈ ((cfg0.win 3).blk t).view.set := by
  have hi0 : (i 0).val < 8 := (i 0).isLt
  have hi1 : (i 1).val < 64 := (i 1).isLt
  have hi2 : (i 2).val < 512 := (i 2).isLt
  obtain ⟨t, ht⟩ : ∃ t : Fin cfg0.N, t.val = (i 0).val :=
    ⟨⟨(i 0).val, by rw [show cfg0.N = 8 from N_0]; omega⟩, rfl⟩
  obtain ⟨e30, e31, e32, -⟩ := idx_facts0 t
  refine ⟨t, flush0_3 t, ?_⟩
  rw [mem_blk0]
  intro a
  match a with
  | ⟨0, _⟩ =>
    show win0_3.index t (0 : Fin 3) * 1 ≤ (i 0).val ∧ (i 0).val < win0_3.index t (0 : Fin 3) * 1 + 1
    rw [e30, ht]; omega
  | ⟨1, _⟩ =>
    show win0_3.index t (1 : Fin 3) * 64 ≤ (i 1).val ∧ (i 1).val < win0_3.index t (1 : Fin 3) * 64 + 64
    rw [e31]; omega
  | ⟨2, _⟩ =>
    show win0_3.index t (2 : Fin 3) * 512 ≤ (i 2).val ∧ (i 2).val < win0_3.index t (2 : Fin 3) * 512 + 512
    rw [e32]; omega

/-- The result array after the region is the array's function of the three arrays as the region finds them. -/
theorem arr_eq0 (htrip : TripAt) (V : (c : Dev nD) → (b : Ref sig .tc) → Buf (Elt Ideal) ((c : Thread nD τ).loc b)) (c : Dev nD) :
    (dat0 (F := Ideal) V c).arrAt 3 cfg0.N = arrG0 (V c main_v0) (V c main_v1) (V c main_arg2) :=
  (dat0 (F := Ideal) V c).arrAt_eq_of_cover 3 (arrG0 (V c main_v0) (V c main_v1) (V c main_arg2))
    (fun t _ => flushed_eq0 htrip V c t) cover0

/-- Entry (b, u, h) of the result array after the region: the specification's aggregated documents of batch entry `b`. -/
theorem final0 (htrip : TripAt) (V : (c : Dev nD) → (b : Ref sig .tc) → Buf (Elt Ideal) ((c : Thread nD τ).loc b)) (c : Dev nD) (b : Fin 8) (u : Fin 64) (h : Fin 512) :
    ((dat0 (F := Ideal) V c).arrAt 3 cfg0.N : S8x64x512.Idx → EReal) (ix3 b u h)
      = docAgg (fun n t h' => (V c main_v0 : S8x20x300x512.Idx → EReal) (ix4 b n t h'))
          (fun u' h' => (V c main_v1 : S8x64x512.Idx → EReal) (ix3 b u' h'))
          (fun n t => FloatOps.sitofp (F := Ideal) .f32 ((V c main_arg2 : S8x20x300.Idx → BitVec 32) (ix3 b n t))) u h := by
  rw [arr_eq0 htrip V c]
  rfl

end Cert.CoAttn.R0

end
-- ==== Proof.Region0Trip.lean ====
/-
  One trip of the first region's loop, read at an index.

  A trip takes one document (300 token rows of 512 features, with its 300 mask entries), the 64 question rows, and the
  64 × 512 accumulator.  It scores every token against every question row by the inner product over the features,
  takes, for each question position, the masked softmax of its scores over the 300 tokens, and adds to the accumulator
  at (u, h) the sum over the tokens of that weight times the token's feature h.
-/
import proofs.«160770_j72507637891628_2_alg».proof.Proof.Spec
import proofs.«160770_j72507637891628_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.CoAttn.R0

open Idealize.ShloMosaic Idealize.ShloMosaic.ValueIdx
open Cert.KernelIdeal Cert.KernelIdeal.Gen

/-! ## Layout operations at an index -/

/-- The document block without its two unit axes. -/
theorem doc_cast_apply (d : S1x1x300x512.Idx → EReal) (z0 z1 : Fin 1) (t : Fin 300) (h : Fin 512) :
    shapeCast S300x512 d shapeCasts_S1x1x300x512_S300x512 (ix2 t h) = d (ix4 z0 z1 t h) :=
  shapeCast_apply d _ _ _ (by
    show (S1x1x300x512.rowMajor (ix4 z0 z1 t h)).val = (S300x512.rowMajor (ix2 t h)).val
    rw [Shape.rowMajor_val_four, Shape.rowMajor_val_two]
    show ((z0.val * 1 + z1.val) * 300 + t.val) * 512 + h.val = t.val * 512 + h.val
    have := z0.isLt; have := z1.isLt; omega)

/-- The question block without its unit axis. -/
theorem q_cast_apply (q : S1x64x512.Idx → EReal) (z : Fin 1) (u : Fin 64) (h : Fin 512) :
    shapeCast S64x512 q shapeCasts_S1x64x512_S64x512 (ix2 u h) = q (ix3 z u h) :=
  shapeCast_apply q _ _ _ (by
    show (S1x64x512.rowMajor (ix3 z u h)).val = (S64x512.rowMajor (ix2 u h)).val
    rw [Shape.rowMajor_val_three, Shape.rowMajor_val_two]
    show (z.val * 64 + u.val) * 512 + h.val = u.val * 512 + h.val
    have := z.isLt; omega)

/-- The mask block without its two unit axes. -/
theorem mask_cast_apply {α : Type} (mk : S1x1x300.Idx → α) (z0 z1 : Fin 1) (t : Fin 300) :
    shapeCast S300 mk shapeCasts_S1x1x300_S300 (ix1 t) = mk (ix3 z0 z1 t) :=
  shapeCast_apply mk _ _ _ (by
    show (S1x1x300.rowMajor (ix3 z0 z1 t)).val = (S300.rowMajor (ix1 t)).val
    rw [Shape.rowMajor_val_three, Shape.rowMajor_val_one]
    show (z0.val * 1 + z1.val) * 300 + t.val = t.val
    have := z0.isLt; have := z1.isLt; omega)

/-- A vector of 300 as a column. -/
theorem col_cast_apply {α : Type} (v : S300.Idx → α) (t : Fin 300) (z : Fin 1) :
    shapeCast S300x1 v shapeCasts_S300_S300x1 (ix2 t z) = v (ix1 t) :=
  shapeCast_apply v _ _ _ (by
    show (S300.rowMajor (ix1 t)).val = (S300x1.rowMajor (ix2 t z)).val
    rw [Shape.rowMajor_val_two, Shape.rowMajor_val_one]
    show t.val = t.val * 1 + z.val
    have := z.isLt; omega)

/-- A vector of 64 as a row. -/
theorem row_cast_apply {α : Type} (v : S64.Idx → α) (z : Fin 1) (u : Fin 64) :
    shapeCast S1x64 v shapeCasts_S64_S1x64 (ix2 z u) = v (ix1 u) :=
  shapeCast_apply v _ _ _ (by
    show (S64.rowMajor (ix1 u)).val = (S1x64.rowMajor (ix2 z u)).val
    rw [Shape.rowMajor_val_two, Shape.rowMajor_val_one]
    show u.val = z.val * 64 + u.val
    have := z.isLt; omega)

/-- A 64 × 512 matrix cast to its own shape. -/
theorem same_cast_apply {α : Type} (v : S64x512.Idx → α) (i : S64x512.Idx) :
    shapeCast S64x512 v shapeCasts_S64x512_S64x512 i = v i :=
  shapeCast_apply v _ _ _ rfl

/-- A column repeated along 64 columns. -/
theorem col_bcast_apply {α : Type} (v : S300x1.Idx → α) (t : Fin 300) (u : Fin 64) :
    broadcastTo S300x64 v broadcasts_S300x1_S300x64 (ix2 t u) = v (ix2 t (0 : Fin 1)) :=
  broadcastTo_apply v _ _ _ (fun a => match a with
    | ⟨0, _⟩ => by show t.val = if (300 : Nat) = 1 then 0 else t.val; rw [if_neg (by decide)]
    | ⟨1, _⟩ => by show (0 : Nat) = if (1 : Nat) = 1 then 0 else u.val; rw [if_pos rfl])

/-- A row repeated along 300 rows. -/
theorem row_bcast_apply {α : Type} (v : S1x64.Idx → α) (t : Fin 300) (u : Fin 64) :
    broadcastTo S300x64 v broadcasts_S1x64_S300x64 (ix2 t u) = v (ix2 (0 : Fin 1) u) :=
  broadcastTo_apply v _ _ _ (fun a => match a with
    | ⟨0, _⟩ => by show (0 : Nat) = if (1 : Nat) = 1 then 0 else t.val; rw [if_pos rfl]
    | ⟨1, _⟩ => by show u.val = if (64 : Nat) = 1 then 0 else u.val; rw [if_neg (by decide)])

/-- The exponential, elementwise. -/
theorem exp_apply {s : Shape} {φ : FTy} (a : FVec Ideal s φ) (i : s.Idx) : exp a i = Ideal.exp (a i) := rfl

/-! ## The two matrix products at an index -/

/-- Scores, left operand: the row is the output's row. -/
theorem scores_lhs0 (i : S300x64.Idx) (q : dot_S300x512_S64x512_S300x64_1_1_0_0_n_n.contr.Idx) :
    (dot_S300x512_S64x512_S300x64_1_1_0_0_n_n.lhsIdx i q 0).val = (i 0).val := by
  unfold DotDims.lhsIdx
  rw [dif_neg (show ¬(0 : Fin S300x512.rank) ∈ dot_S300x512_S64x512_S300x64_1_1_0_0_n_n.lhsBatch by decide),
    dif_pos (show (0 : Fin S300x512.rank) ∈ dot_S300x512_S64x512_S300x64_1_1_0_0_n_n.lhsNonContracting by decide)]
  rfl
/-- Scores, left operand: the column is the contraction position. -/
theorem scores_lhs1 (i : S300x64.Idx) (q : dot_S300x512_S64x512_S300x64_1_1_0_0_n_n.contr.Idx) :
    (dot_S300x512_S64x512_S300x64_1_1_0_0_n_n.lhsIdx i q 1).val = (q ⟨0, by decide⟩).val :=
  dot_S300x512_S64x512_S300x64_1_1_0_0_n_n.lhsIdx_val_of_single rfl i q
/-- Scores, right operand: the row is the output's column. -/
theorem scores_rhs0 (i : S300x64.Idx) (q : dot_S300x512_S64x512_S300x64_1_1_0_0_n_n.contr.Idx) :
    (dot_S300x512_S64x512_S300x64_1_1_0_0_n_n.rhsIdx i q 0).val = (i 1).val := by
  unfold DotDims.rhsIdx
  rw [dif_neg (show ¬(0 : Fin S64x512.rank) ∈ dot_S300x512_S64x512_S300x64_1_1_0_0_n_n.rhsBatch by decide),
    dif_pos (show (0 : Fin S64x512.rank) ∈ dot_S300x512_S64x512_S300x64_1_1_0_0_n_n.rhsNonContracting by decide)]
  rfl
/-- Scores, right operand: the column is the contraction position. -/
theorem scores_rhs1 (i : S300x64.Idx) (q : dot_S300x512_S64x512_S300x64_1_1_0_0_n_n.contr.Idx) :
    (dot_S300x512_S64x512_S300x64_1_1_0_0_n_n.rhsIdx i q 1).val = (q ⟨0, by decide⟩).val :=
  dot_S300x512_S64x512_S300x64_1_1_0_0_n_n.rhsIdx_val_of_single rfl i q

/-- Tokens against question rows: the inner product over the 512 features. -/
theorem scores_apply (A : FVec Ideal S300x512 .bf16) (B : FVec Ideal S64x512 .bf16) (t : Fin 300) (u : Fin 64) :
    matmul dot_S300x512_S64x512_S300x64_1_1_0_0_n_n none A B (constant S300x64 .f32 0x00000000#32) (ix2 t u)
      = ∑ k : Fin 512, A (ix2 t k) * B (ix2 u k) := by
  simp only [matmul]
  rw [Ideal.matmul_constant_zero_apply,
    ← Equiv.sum_comp (contrEquiv1 dot_S300x512_S64x512_S300x64_1_1_0_0_n_n 512 rfl rfl).symm]
  refine Finset.sum_congr rfl fun k _ => ?_
  have hk := contrEquiv1_symm_val dot_S300x512_S64x512_S300x64_1_1_0_0_n_n 512 rfl rfl k
  have el : dot_S300x512_S64x512_S300x64_1_1_0_0_n_n.lhsIdx (ix2 t u)
      ((contrEquiv1 dot_S300x512_S64x512_S300x64_1_1_0_0_n_n 512 rfl rfl).symm k) = ix2 t k :=
    funext fun a => Fin.ext (by
      match a with
      | ⟨0, _⟩ => exact scores_lhs0 _ _
      | ⟨1, _⟩ => exact (scores_lhs1 _ _).trans hk)
  have er : dot_S300x512_S64x512_S300x64_1_1_0_0_n_n.rhsIdx (ix2 t u)
      ((contrEquiv1 dot_S300x512_S64x512_S300x64_1_1_0_0_n_n 512 rfl rfl).symm k) = ix2 u k :=
    funext fun a => Fin.ext (by
      match a with
      | ⟨0, _⟩ => exact scores_rhs0 _ _
      | ⟨1, _⟩ => exact (scores_rhs1 _ _).trans hk)
  rw [el, er]

/-- Weighted rows, left operand: the row is the contraction position. -/
theorem weighted_lhs0 (i : S64x512.Idx) (q : dot_S300x64_S300x512_S64x512_0_0_1_1_n_n.contr.Idx) :
    (dot_S300x64_S300x512_S64x512_0_0_1_1_n_n.lhsIdx i q 0).val = (q ⟨0, by decide⟩).val :=
  dot_S300x64_S300x512_S64x512_0_0_1_1_n_n.lhsIdx_val_of_single rfl i q
/-- Weighted rows, left operand: the column is the output's row. -/
theorem weighted_lhs1 (i : S64x512.Idx) (q : dot_S300x64_S300x512_S64x512_0_0_1_1_n_n.contr.Idx) :
    (dot_S300x64_S300x512_S64x512_0_0_1_1_n_n.lhsIdx i q 1).val = (i 0).val := by
  unfold DotDims.lhsIdx
  rw [dif_neg (show ¬(1 : Fin S300x64.rank) ∈ dot_S300x64_S300x512_S64x512_0_0_1_1_n_n.lhsBatch by decide),
    dif_pos (show (1 : Fin S300x64.rank) ∈ dot_S300x64_S300x512_S64x512_0_0_1_1_n_n.lhsNonContracting by decide)]
  rfl
/-- Weighted rows, right operand: the row is the contraction position. -/
theorem weighted_rhs0 (i : S64x512.Idx) (q : dot_S300x64_S300x512_S64x512_0_0_1_1_n_n.contr.Idx) :
    (dot_S300x64_S300x512_S64x512_0_0_1_1_n_n.rhsIdx i q 0).val = (q ⟨0, by decide⟩).val :=
  dot_S300x64_S300x512_S64x512_0_0_1_1_n_n.rhsIdx_val_of_single rfl i q
/-- Weighted rows, right operand: the column is the output's column. -/
theorem weighted_rhs1 (i : S64x512.Idx) (q : dot_S300x64_S300x512_S64x512_0_0_1_1_n_n.contr.Idx) :
    (dot_S300x64_S300x512_S64x512_0_0_1_1_n_n.rhsIdx i q 1).val = (i 1).val := by
  unfold DotDims.rhsIdx
  rw [dif_neg (show ¬(1 : Fin S300x512.rank) ∈ dot_S300x64_S300x512_S64x512_0_0_1_1_n_n.rhsBatch by decide),
    dif_pos (show (1 : Fin S300x512.rank) ∈ dot_S300x64_S300x512_S64x512_0_0_1_1_n_n.rhsNonContracting by decide)]
  rfl

/-- Weights against token rows, contracted over the 300 tokens. -/
theorem weighted_apply (P : FVec Ideal S300x64 .bf16) (D : FVec Ideal S300x512 .bf16) (u : Fin 64) (h : Fin 512) :
    matmul dot_S300x64_S300x512_S64x512_0_0_1_1_n_n none P D (constant S64x512 .f32 0x00000000#32) (ix2 u h)
      = ∑ t : Fin 300, P (ix2 t u) * D (ix2 t h) := by
  simp only [matmul]
  rw [Ideal.matmul_constant_zero_apply,
    ← Equiv.sum_comp (contrEquiv1 dot_S300x64_S300x512_S64x512_0_0_1_1_n_n 300 rfl rfl).symm]
  refine Finset.sum_congr rfl fun k _ => ?_
  have hk := contrEquiv1_symm_val dot_S300x64_S300x512_S64x512_0_0_1_1_n_n 300 rfl rfl k
  have el : dot_S300x64_S300x512_S64x512_0_0_1_1_n_n.lhsIdx (ix2 u h)
      ((contrEquiv1 dot_S300x64_S300x512_S64x512_0_0_1_1_n_n 300 rfl rfl).symm k) = ix2 k u :=
    funext fun a => Fin.ext (by
      match a with
      | ⟨0, _⟩ => exact (weighted_lhs0 _ _).trans hk
      | ⟨1, _⟩ => exact weighted_lhs1 _ _)
  have er : dot_S300x64_S300x512_S64x512_0_0_1_1_n_n.rhsIdx (ix2 u h)
      ((contrEquiv1 dot_S300x64_S300x512_S64x512_0_0_1_1_n_n 300 rfl rfl).symm k) = ix2 k h :=
    funext fun a => Fin.ext (by
      match a with
      | ⟨0, _⟩ => exact (weighted_rhs0 _ _).trans hk
      | ⟨1, _⟩ => exact weighted_rhs1 _ _)
  rw [el, er]

/-! ## The two column reductions at an index -/

/-- The source index of a column reduction: row `t` of column `u`. -/
theorem lift_col (u : Fin 64) (t : Fin 300) : reduces_S300x64_S64.lift (ix1 u) t = ix2 t u :=
  funext fun c => Fin.ext (match c with | ⟨0, _⟩ => rfl | ⟨1, _⟩ => rfl)

/-- A column's sum over the 300 rows. -/
theorem colSum_apply (X : FVec Ideal S300x64 .f32) (hφ : FKind.Formats .f32)
    (hacc : (0x00000000#32 : BitVec 32) = 0x00000000#32) (u : Fin 64) :
    multiReduction .add [0] S64 X 0x00000000#32 reduces_S300x64_S64 hφ hacc (ix1 u)
      = ∑ t : Fin 300, X (ix2 t u) :=
  (Ideal.multiReduction_add_single X 0x00000000#32 reduces_S300x64_S64 hφ hacc (ix1 u)).trans
    (Finset.sum_congr rfl fun t _ => congrArg X (lift_col u t))

/-- A column's maximum over the 300 rows, started from minus infinity. -/
theorem colMax_apply (X : FVec Ideal S300x64 .f32) (hφ : FKind.Formats .f32)
    (hacc : (0xFF800000#32 : BitVec 32) = 0xFF800000#32) (u : Fin 64) :
    multiReduction .maximumf [0] S64 X 0xFF800000#32 reduces_S300x64_S64 hφ hacc (ix1 u)
      = Finset.univ.fold max negInf (fun t : Fin 300 => X (ix2 t u)) :=
  (Ideal.multiReduction_maximumf_single X 0xFF800000#32 reduces_S300x64_S64 hφ hacc (ix1 u)).trans
    (congrArg (Finset.univ.fold max negInf) (funext fun t => congrArg X (lift_col u t)))

/-! ## The trip -/

/-- The document rows as the trip reads them. -/
theorem pay4_apply (d : Vec Ideal S1x1x300x512 .bf16) (t : Fin 300) (h : Fin 512) :
    (k0_pay4 (F := Ideal) d : S300x512.Idx → EReal) (ix2 t h) = d (ix4 0 0 t h) := by
  unfold k0_pay4
  exact doc_cast_apply d 0 0 t h

/-- The attention weights of one document: for each question position, the masked softmax of its scores over the 300
    tokens. -/
theorem pay5_apply (q : Vec Ideal S1x64x512 .bf16) (d : Vec Ideal S1x1x300x512 .bf16) (mk : Vec Ideal S1x1x300 .i32)
    (t : Fin 300) (u : Fin 64) :
    (k0_pay5 (F := Ideal) q d mk : S300x64.Idx → EReal) (ix2 t u)
      = msm (fun t' => ∑ h' : Fin 512, d (ix4 0 0 t' h') * q (ix3 0 u h'))
          (fun t' => FloatOps.sitofp (F := Ideal) .f32 (mk (ix3 0 0 t'))) t := by
  unfold k0_pay5 k0_pay4 k0_pay3
  simp only [msm, sm, ex, rmax]
  repeat (first
    | rw [colMax_apply]
    | rw [colSum_apply]
    | simp only [divf_apply, mulf_apply, subf_apply, addf_apply, maximumf_apply, exp_apply, broadcast_apply,
        sitofp_apply, row_bcast_apply, col_bcast_apply, row_cast_apply, col_cast_apply, scores_apply,
        doc_cast_apply _ 0 0, q_cast_apply _ 0, mask_cast_apply _ 0 0, Scalar.ofBits, Ideal.ofBits_def])

/-- One trip: the accumulator plus, at (u, h), the sum over the tokens of the attention weight times the token's
    feature. -/
theorem trip_apply (qraw : Vec Ideal S1x64x512 .bf16) (d : Vec Ideal S1x1x300x512 .bf16) (mk : Vec Ideal S1x1x300 .i32)
    (acc : Vec Ideal S64x512 .f32) (u : Fin 64) (h : Fin 512) :
    (k0_pay6 (F := Ideal) (k0_pay4 d) (k0_pay5 qraw d mk) acc : S64x512.Idx → EReal) (ix2 u h)
      = acc (ix2 u h) + ∑ t : Fin 300,
          msm (fun t' => ∑ h' : Fin 512, d (ix4 0 0 t' h') * qraw (ix3 0 u h'))
            (fun t' => FloatOps.sitofp (F := Ideal) .f32 (mk (ix3 0 0 t'))) t * d (ix4 0 0 t h) := by
  unfold k0_pay6
  simp only [same_cast_apply, addf_apply, weighted_apply, truncf_apply, pay5_apply, pay4_apply]

end Cert.CoAttn.R0

end
-- ==== Proof.Region1Lanes.lean ====
/-
  The body of the second region computes, for a block of 2000 token rows, their scores against the 64 question rows,
  the masked softmax of each row of scores over its 64 lanes, and two products of those weights with 64 × 512
  matrices.  This module reads the operations that are not pointwise at an index of the block, over the extended
  reals: a lane sum is a sum over `Fin 64`, a lane maximum the fold of `max` from minus infinity, a column vector
  spread over the lanes reads its row's entry, and the two matrix products are the sums over their one contracted axis.
-/
import proofs.«160770_j72507637891628_2_alg».proof.Proof.Spec
import proofs.«160770_j72507637891628_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.CoAttn.R1

open Idealize.ShloMosaic Idealize.ShloMosaic.ValueIdx Cert.KernelIdeal Cert.KernelIdeal.Gen
open scoped BigOperators

/-! ## The lane reductions, the keepdims casts and the broadcasts of the 2000 × 64 score block, at an index -/

/-- A row of a 2000 × 64 block summed over its 64 lanes. -/
theorem rowSum (v : FVec Ideal S2000x64 .f32) (hφ : FKind.Formats .f32) (hacc : (0x00000000#32 : BitVec 32) = 0x00000000#32)
    (r : Fin 2000) :
    multiReduction (F := Ideal) .add [1] S2000 v 0x00000000#32 reduces_S2000x64_S2000 hφ hacc (ix1 r) = ∑ u : Fin 64, v (ix2 r u) := by
  refine (Ideal.multiReduction_add_single v 0x00000000#32 reduces_S2000x64_S2000 hφ hacc (ix1 r)).trans ?_
  refine Finset.sum_congr rfl fun u _ => congrArg v ?_
  funext a; match a with | ⟨0, _⟩ => rfl | ⟨1, _⟩ => rfl

/-- The maximum of a row of a 2000 × 64 block over its 64 lanes, started from minus infinity. -/
theorem rowMax (v : FVec Ideal S2000x64 .f32) (hφ : FKind.Formats .f32) (hacc : (0xFF800000#32 : BitVec 32) = 0xFF800000#32)
    (r : Fin 2000) :
    multiReduction (F := Ideal) .maximumf [1] S2000 v 0xFF800000#32 reduces_S2000x64_S2000 hφ hacc (ix1 r)
      = Finset.univ.fold max negInf (fun u : Fin 64 => v (ix2 r u)) := by
  refine (Ideal.multiReduction_maximumf_single v 0xFF800000#32 reduces_S2000x64_S2000 hφ hacc (ix1 r)).trans ?_
  refine congrArg (Finset.univ.fold max negInf) ?_
  funext u
  refine congrArg v ?_
  funext a; match a with | ⟨0, _⟩ => rfl | ⟨1, _⟩ => rfl

/-- A column vector [2000] recast as [2000, 1] and broadcast over the 64 lanes reads its row's entry. -/
theorem colBcast (z : FVec Ideal S2000x1 .f32) (r : Fin 2000) (u : Fin 64) :
    broadcastTo S2000x64 z broadcasts_S2000x1_S2000x64 (ix2 r u) = z (ix2 r (0 : Fin 1)) := by
  refine broadcastTo_apply z broadcasts_S2000x1_S2000x64 (ix2 r u) (ix2 r (0 : Fin 1)) fun a => ?_
  match a with
  | ⟨0, _⟩ => show r.val = if (2000 : ℕ) = 1 then 0 else r.val; rw [if_neg (by decide)]
  | ⟨1, _⟩ => show (0 : ℕ) = if (1 : ℕ) = 1 then 0 else u.val; rw [if_pos rfl]

/-- The keepdims cast [2000] → [2000, 1] at a row. -/
theorem colCast (w : FVec Ideal S2000 .f32) (r : Fin 2000) :
    shapeCast S2000x1 w shapeCasts_S2000_S2000x1 (ix2 r (0 : Fin 1)) = w (ix1 r) := by
  refine shapeCast_apply w shapeCasts_S2000_S2000x1 (ix2 r (0 : Fin 1)) (ix1 r) ?_
  rw [Shape.rowMajor_val_one, Shape.rowMajor_val_two]
  show r.val = r.val * 1 + 0
  omega

/-! ## The two matrix products at an index -/

section Dots

theorem lhsNT_0 (i : S2000x64.Idx) (q : (dot_S2000x512_S64x512_S2000x64_1_1_0_0_n_n).contr.Idx) :
    ((dot_S2000x512_S64x512_S2000x64_1_1_0_0_n_n).lhsIdx i q 0).val = (i 0).val := by
  unfold DotDims.lhsIdx
  rw [dif_neg (show ¬(0 : Fin S2000x512.rank) ∈ (dot_S2000x512_S64x512_S2000x64_1_1_0_0_n_n).lhsBatch by decide),
    dif_pos (show (0 : Fin S2000x512.rank) ∈ (dot_S2000x512_S64x512_S2000x64_1_1_0_0_n_n).lhsNonContracting by decide)]
  rfl
theorem lhsNT_1 (i : S2000x64.Idx) (q : (dot_S2000x512_S64x512_S2000x64_1_1_0_0_n_n).contr.Idx) :
    ((dot_S2000x512_S64x512_S2000x64_1_1_0_0_n_n).lhsIdx i q 1).val = (q ⟨0, by decide⟩).val :=
  (dot_S2000x512_S64x512_S2000x64_1_1_0_0_n_n).lhsIdx_val_of_single rfl i q
theorem rhsNT_0 (i : S2000x64.Idx) (q : (dot_S2000x512_S64x512_S2000x64_1_1_0_0_n_n).contr.Idx) :
    ((dot_S2000x512_S64x512_S2000x64_1_1_0_0_n_n).rhsIdx i q 0).val = (i 1).val := by
  unfold DotDims.rhsIdx
  rw [dif_neg (show ¬(0 : Fin S64x512.rank) ∈ (dot_S2000x512_S64x512_S2000x64_1_1_0_0_n_n).rhsBatch by decide),
    dif_pos (show (0 : Fin S64x512.rank) ∈ (dot_S2000x512_S64x512_S2000x64_1_1_0_0_n_n).rhsNonContracting by decide)]
  rfl
theorem rhsNT_1 (i : S2000x64.Idx) (q : (dot_S2000x512_S64x512_S2000x64_1_1_0_0_n_n).contr.Idx) :
    ((dot_S2000x512_S64x512_S2000x64_1_1_0_0_n_n).rhsIdx i q 1).val = (q ⟨0, by decide⟩).val :=
  (dot_S2000x512_S64x512_S2000x64_1_1_0_0_n_n).rhsIdx_val_of_single rfl i q

/-- Rows against rows: `(a · bᵀ)[r, u] = ∑ h, a[r, h] · b[u, h]`. -/
theorem matmulNT (a : FVec Ideal S2000x512 .bf16) (b : FVec Ideal S64x512 .bf16) (r : Fin 2000) (u : Fin 64) :
    matmul (F := Ideal) dot_S2000x512_S64x512_S2000x64_1_1_0_0_n_n none a b (constant (F := Ideal) S2000x64 .f32 0x00000000#32) (ix2 r u)
      = ∑ h : Fin 512, a (ix2 r h) * b (ix2 u h) := by
  refine (Ideal.matmul_constant_zero_apply dot_S2000x512_S64x512_S2000x64_1_1_0_0_n_n none a b (ix2 r u)).trans ?_
  rw [← Equiv.sum_comp (contrEquiv1 dot_S2000x512_S64x512_S2000x64_1_1_0_0_n_n 512 rfl rfl).symm]
  refine Finset.sum_congr rfl fun k _ => ?_
  have hk := contrEquiv1_symm_val dot_S2000x512_S64x512_S2000x64_1_1_0_0_n_n 512 rfl rfl k
  have el : (dot_S2000x512_S64x512_S2000x64_1_1_0_0_n_n).lhsIdx (ix2 r u) ((contrEquiv1 dot_S2000x512_S64x512_S2000x64_1_1_0_0_n_n 512 rfl rfl).symm k) = ix2 r k :=
    funext fun c => Fin.ext (by
      match c with
      | ⟨0, _⟩ => exact lhsNT_0 _ _
      | ⟨1, _⟩ => exact (lhsNT_1 _ _).trans hk)
  have er : (dot_S2000x512_S64x512_S2000x64_1_1_0_0_n_n).rhsIdx (ix2 r u) ((contrEquiv1 dot_S2000x512_S64x512_S2000x64_1_1_0_0_n_n 512 rfl rfl).symm k) = ix2 u k :=
    funext fun c => Fin.ext (by
      match c with
      | ⟨0, _⟩ => exact rhsNT_0 _ _
      | ⟨1, _⟩ => exact (rhsNT_1 _ _).trans hk)
  rw [el, er]

theorem lhsNN_0 (i : S2000x512.Idx) (q : (dot_S2000x64_S64x512_S2000x512_1_0_0_1_n_n).contr.Idx) :
    ((dot_S2000x64_S64x512_S2000x512_1_0_0_1_n_n).lhsIdx i q 0).val = (i 0).val := by
  unfold DotDims.lhsIdx
  rw [dif_neg (show ¬(0 : Fin S2000x64.rank) ∈ (dot_S2000x64_S64x512_S2000x512_1_0_0_1_n_n).lhsBatch by decide),
    dif_pos (show (0 : Fin S2000x64.rank) ∈ (dot_S2000x64_S64x512_S2000x512_1_0_0_1_n_n).lhsNonContracting by decide)]
  rfl
theorem lhsNN_1 (i : S2000x512.Idx) (q : (dot_S2000x64_S64x512_S2000x512_1_0_0_1_n_n).contr.Idx) :
    ((dot_S2000x64_S64x512_S2000x512_1_0_0_1_n_n).lhsIdx i q 1).val = (q ⟨0, by decide⟩).val :=
  (dot_S2000x64_S64x512_S2000x512_1_0_0_1_n_n).lhsIdx_val_of_single rfl i q
theorem rhsNN_0 (i : S2000x512.Idx) (q : (dot_S2000x64_S64x512_S2000x512_1_0_0_1_n_n).contr.Idx) :
    ((dot_S2000x64_S64x512_S2000x512_1_0_0_1_n_n).rhsIdx i q 0).val = (q ⟨0, by decide⟩).val :=
  (dot_S2000x64_S64x512_S2000x512_1_0_0_1_n_n).rhsIdx_val_of_single rfl i q
theorem rhsNN_1 (i : S2000x512.Idx) (q : (dot_S2000x64_S64x512_S2000x512_1_0_0_1_n_n).contr.Idx) :
    ((dot_S2000x64_S64x512_S2000x512_1_0_0_1_n_n).rhsIdx i q 1).val = (i 1).val := by
  unfold DotDims.rhsIdx
  rw [dif_neg (show ¬(1 : Fin S64x512.rank) ∈ (dot_S2000x64_S64x512_S2000x512_1_0_0_1_n_n).rhsBatch by decide),
    dif_pos (show (1 : Fin S64x512.rank) ∈ (dot_S2000x64_S64x512_S2000x512_1_0_0_1_n_n).rhsNonContracting by decide)]
  rfl

/-- Rows against columns: `(p · b)[r, h] = ∑ u, p[r, u] · b[u, h]`. -/
theorem matmulNN (p : FVec Ideal S2000x64 .bf16) (b : FVec Ideal S64x512 .bf16) (r : Fin 2000) (h : Fin 512) :
    matmul (F := Ideal) dot_S2000x64_S64x512_S2000x512_1_0_0_1_n_n none p b (constant (F := Ideal) S2000x512 .f32 0x00000000#32) (ix2 r h)
      = ∑ u : Fin 64, p (ix2 r u) * b (ix2 u h) := by
  refine (Ideal.matmul_constant_zero_apply dot_S2000x64_S64x512_S2000x512_1_0_0_1_n_n none p b (ix2 r h)).trans ?_
  rw [← Equiv.sum_comp (contrEquiv1 dot_S2000x64_S64x512_S2000x512_1_0_0_1_n_n 64 rfl rfl).symm]
  refine Finset.sum_congr rfl fun k _ => ?_
  have hk := contrEquiv1_symm_val dot_S2000x64_S64x512_S2000x512_1_0_0_1_n_n 64 rfl rfl k
  have el : (dot_S2000x64_S64x512_S2000x512_1_0_0_1_n_n).lhsIdx (ix2 r h) ((contrEquiv1 dot_S2000x64_S64x512_S2000x512_1_0_0_1_n_n 64 rfl rfl).symm k) = ix2 r k :=
    funext fun c => Fin.ext (by
      match c with
      | ⟨0, _⟩ => exact lhsNN_0 _ _
      | ⟨1, _⟩ => exact (lhsNN_1 _ _).trans hk)
  have er : (dot_S2000x64_S64x512_S2000x512_1_0_0_1_n_n).rhsIdx (ix2 r h) ((contrEquiv1 dot_S2000x64_S64x512_S2000x512_1_0_0_1_n_n 64 rfl rfl).symm k) = ix2 k h :=
    funext fun c => Fin.ext (by
      match c with
      | ⟨0, _⟩ => exact (rhsNN_0 _ _).trans hk
      | ⟨1, _⟩ => exact rhsNN_1 _ _)
  rw [el, er]

end Dots

end Cert.CoAttn.R1

end
-- ==== Proof.Region1Attn.lean ====
/-
  The attention weights of a block of 2000 token rows and the two weighted sums they enter, at an index.  The body
  multiplies the scores by the question mask, takes each row's maximum (started from minus infinity and joined with it
  once more), exponentiates the differences, normalises by the row sum, multiplies by the mask again and normalises by
  (the new row sum plus a small constant): lane by lane this is the masked softmax `msm` of the specification applied to
  the row of scores.  The two matrix products that follow are the sums over the 64 question positions of those weights
  times the question rows, and times the rows of the second matrix.
-/
import proofs.«160770_j72507637891628_2_alg».proof.Proof.Region1Lanes

set_option synthInstance.maxSize 4096

noncomputable section

namespace Cert.CoAttn.R1

open Idealize.ShloMosaic Idealize.ShloMosaic.ValueIdx Cert.KernelIdeal Cert.KernelIdeal.Gen
open scoped BigOperators

/-! ## The masked softmax of a block of masked scores, lane by lane -/

/-- The row maxima (each joined once more with minus infinity), spread back over the 64 lanes. -/
def rowMaxV (v : FVec Ideal S2000x64 .f32) : FVec Ideal S2000x64 .f32 :=
  broadcastTo S2000x64 (shapeCast S2000x1 (maximumf (broadcast S2000 (Scalar.ofBits (F := Ideal) .f32 0xFF800000#32))
    (multiReduction (F := Ideal) .maximumf [1] S2000 v 0xFF800000#32 reduces_S2000x64_S2000 (.inl rfl) rfl))
    shapeCasts_S2000_S2000x1) broadcasts_S2000x1_S2000x64

theorem rowMaxV_apply (v : FVec Ideal S2000x64 .f32) (r : Fin 2000) (u : Fin 64) :
    rowMaxV v (ix2 r u) = rmax (fun k : Fin 64 => v (ix2 r k)) := by
  unfold rowMaxV
  refine (colBcast _ r u).trans ?_
  refine (colCast _ r).trans ?_
  exact congrArg (max negInf) (rowMax v _ _ r)

/-- The row sums, spread back over the 64 lanes. -/
def rowSumV (v : FVec Ideal S2000x64 .f32) : FVec Ideal S2000x64 .f32 :=
  broadcastTo S2000x64 (shapeCast S2000x1
    (multiReduction (F := Ideal) .add [1] S2000 v 0x00000000#32 reduces_S2000x64_S2000 (.inl rfl) rfl)
    shapeCasts_S2000_S2000x1) broadcasts_S2000x1_S2000x64

theorem rowSumV_apply (v : FVec Ideal S2000x64 .f32) (r : Fin 2000) (u : Fin 64) :
    rowSumV v (ix2 r u) = ∑ k : Fin 64, v (ix2 r k) :=
  (colBcast _ r u).trans ((colCast _ r).trans (rowSum v _ _ r))

/-- The row sums plus the small constant, spread back over the 64 lanes. -/
def rowSumTinyV (v : FVec Ideal S2000x64 .f32) : FVec Ideal S2000x64 .f32 :=
  broadcastTo S2000x64 (addf (shapeCast S2000x1
    (multiReduction (F := Ideal) .add [1] S2000 v 0x00000000#32 reduces_S2000x64_S2000 (.inl rfl) rfl)
    shapeCasts_S2000_S2000x1) (broadcast S2000x1 (Scalar.ofBits (F := Ideal) .f32 0x29E12E13#32))) broadcasts_S2000x1_S2000x64

theorem rowSumTinyV_apply (v : FVec Ideal S2000x64 .f32) (r : Fin 2000) (u : Fin 64) :
    rowSumTinyV v (ix2 r u) = (∑ k : Fin 64, v (ix2 r k)) + tiny := by
  unfold rowSumTinyV
  refine (colBcast _ r u).trans ?_
  exact congrArg (· + tiny) ((colCast _ r).trans (rowSum v _ _ r))

/-- `exp` of each entry less its row's maximum. -/
def expV (v : FVec Ideal S2000x64 .f32) : FVec Ideal S2000x64 .f32 := exp (subf v (rowMaxV v))

theorem expV_apply (v : FVec Ideal S2000x64 .f32) (r : Fin 2000) (u : Fin 64) :
    expV v (ix2 r u) = ex (fun k : Fin 64 => v (ix2 r k)) u := by
  show Ideal.exp (v (ix2 r u) - rowMaxV v (ix2 r u)) = _
  rw [rowMaxV_apply]
  rfl

/-- The softmax of each row. -/
def smV (v : FVec Ideal S2000x64 .f32) : FVec Ideal S2000x64 .f32 := divf (expV v) (rowSumV (expV v))

theorem smV_apply (v : FVec Ideal S2000x64 .f32) (r : Fin 2000) (u : Fin 64) :
    smV v (ix2 r u) = sm (fun k : Fin 64 => v (ix2 r k)) u := by
  show Ideal.div (expV v (ix2 r u)) (rowSumV (expV v) (ix2 r u)) = _
  rw [rowSumV_apply, expV_apply]
  unfold sm
  refine congrArg (Ideal.div _) (Finset.sum_congr rfl fun k _ => expV_apply v r k)

/-- The softmax times the mask, renormalised by (its row sum plus the small constant). -/
def attnV (v m : FVec Ideal S2000x64 .f32) : FVec Ideal S2000x64 .bf16 :=
  truncf .bf16 (divf (mulf (smV v) m) (rowSumTinyV (mulf (smV v) m))) bitsLt_bf16_f32

theorem attnV_apply (v m : FVec Ideal S2000x64 .f32) (r : Fin 2000) (u : Fin 64) :
    attnV v m (ix2 r u) = Ideal.div (sm (fun k : Fin 64 => v (ix2 r k)) u * m (ix2 r u))
      ((∑ k : Fin 64, sm (fun k' : Fin 64 => v (ix2 r k')) k * m (ix2 r k)) + tiny) := by
  show Ideal.div (smV v (ix2 r u) * m (ix2 r u)) (rowSumTinyV (mulf (smV v) m) (ix2 r u)) = _
  rw [rowSumTinyV_apply, smV_apply]
  refine congrArg (fun z => Ideal.div _ (z + tiny)) (Finset.sum_congr rfl fun k _ => ?_)
  show smV v (ix2 r k) * m (ix2 r k) = _
  rw [smV_apply]

/-! ## The attention weights of a block of 2000 token rows -/

/-- The question mask as numbers, one row broadcast over the 2000 token rows. -/
def maskV (x2 : Vec Ideal S1x1x64 .i32) : FVec Ideal S2000x64 .f32 :=
  broadcastTo S2000x64 (sitofp (F := Ideal) .f32 (shapeCast S1x64 x2 shapeCasts_S1x1x64_S1x64)) broadcasts_S1x64_S2000x64

theorem maskV_apply (x2 : Vec Ideal S1x1x64 .i32) (r : Fin 2000) (u : Fin 64) :
    maskV x2 (ix2 r u) = FloatOps.sitofp (F := Ideal) .f32 (x2 (ix3 (0 : Fin 1) (0 : Fin 1) u)) :=
  (broadcastTo_1b_ab_apply _ broadcasts_S1x64_S2000x64 r u).trans
    (congrArg (FloatOps.sitofp (F := Ideal) .f32) (shapeCast_1ab_ab_apply x2 shapeCasts_S1x1x64_S1x64 (0 : Fin 1) u))

/-- The scores: each token row against each question row. -/
def scoreV (x0 : Vec Ideal S1x2000x512 .bf16) (x1 : Vec Ideal S1x64x512 .bf16) : FVec Ideal S2000x64 .f32 :=
  matmul (F := Ideal) dot_S2000x512_S64x512_S2000x64_1_1_0_0_n_n none
    (shapeCast S2000x512 x0 shapeCasts_S1x2000x512_S2000x512 : FVec Ideal S2000x512 .bf16)
    (k1_pay3 x1) (constant (F := Ideal) S2000x64 .f32 0x00000000#32)

theorem pay3_apply (x1 : Vec Ideal S1x64x512 .bf16) (u : Fin 64) (h : Fin 512) :
    k1_pay3 x1 (ix2 u h) = x1 (ix3 (0 : Fin 1) u h) :=
  shapeCast_1ab_ab_apply x1 shapeCasts_S1x64x512_S64x512 u h

theorem scoreV_apply (x0 : Vec Ideal S1x2000x512 .bf16) (x1 : Vec Ideal S1x64x512 .bf16) (r : Fin 2000) (u : Fin 64) :
    scoreV x0 x1 (ix2 r u) = ∑ h : Fin 512, x0 (ix3 (0 : Fin 1) r h) * x1 (ix3 (0 : Fin 1) u h) := by
  unfold scoreV
  refine (matmulNT _ _ r u).trans (Finset.sum_congr rfl fun h _ => ?_)
  exact congrArg₂ (· * ·) (shapeCast_1ab_ab_apply x0 shapeCasts_S1x2000x512_S2000x512 r h) (pay3_apply x1 u h)

/-- The body's attention weights are the masked softmax of the masked scores. -/
theorem pay4_eq (x0 : Vec Ideal S1x2000x512 .bf16) (x1 : Vec Ideal S1x64x512 .bf16) (x2 : Vec Ideal S1x1x64 .i32) :
    k1_pay4 x0 x1 x2 = attnV (mulf (scoreV x0 x1) (maskV x2)) (maskV x2) := by
  unfold k1_pay4 attnV smV expV rowSumTinyV rowSumV rowMaxV scoreV maskV
  rfl

/-- The attention of token row `r` over the 64 question positions. -/
theorem pay4_apply (x0 : Vec Ideal S1x2000x512 .bf16) (x1 : Vec Ideal S1x64x512 .bf16) (x2 : Vec Ideal S1x1x64 .i32)
    (r : Fin 2000) (u : Fin 64) :
    k1_pay4 x0 x1 x2 (ix2 r u)
      = msm (fun u' : Fin 64 => ∑ h : Fin 512, x0 (ix3 (0 : Fin 1) r h) * x1 (ix3 (0 : Fin 1) u' h))
          (fun u' : Fin 64 => FloatOps.sitofp (F := Ideal) .f32 (x2 (ix3 (0 : Fin 1) (0 : Fin 1) u'))) u := by
  rw [pay4_eq, attnV_apply]
  have hv : (fun k : Fin 64 => mulf (scoreV x0 x1) (maskV x2) (ix2 r k))
      = fun k : Fin 64 => (∑ h : Fin 512, x0 (ix3 (0 : Fin 1) r h) * x1 (ix3 (0 : Fin 1) k h))
          * FloatOps.sitofp (F := Ideal) .f32 (x2 (ix3 (0 : Fin 1) (0 : Fin 1) k)) :=
    funext fun k => by
      show scoreV x0 x1 (ix2 r k) * maskV x2 (ix2 r k) = _
      rw [scoreV_apply, maskV_apply]
  rw [hv]
  simp only [maskV_apply]
  rfl

/-! ## The two halves of a result row -/

/-- Columns 0 … 511 of result row `r`: the question rows weighted by the attention of token row `r`. -/
theorem pay5_apply (x0 : Vec Ideal S1x2000x512 .bf16) (x1 : Vec Ideal S1x64x512 .bf16) (x2 : Vec Ideal S1x1x64 .i32)
    (r : Fin 2000) (h : Fin 512) :
    k1_pay5 x0 x1 x2 (ix2 r h)
      = ∑ u : Fin 64, msm (fun u' : Fin 64 => ∑ h' : Fin 512, x0 (ix3 (0 : Fin 1) r h') * x1 (ix3 (0 : Fin 1) u' h'))
          (fun u' : Fin 64 => FloatOps.sitofp (F := Ideal) .f32 (x2 (ix3 (0 : Fin 1) (0 : Fin 1) u'))) u
          * x1 (ix3 (0 : Fin 1) u h) := by
  unfold k1_pay5
  refine (matmulNN _ _ r h).trans (Finset.sum_congr rfl fun u _ => ?_)
  exact congrArg₂ (· * ·) (pay4_apply x0 x1 x2 r u) (pay3_apply x1 u h)

/-- Columns 512 … 1023 of result row `r`: the rows of the second 64 × 512 matrix weighted by the same attention. -/
theorem pay6_apply (x0 : Vec Ideal S1x2000x512 .bf16) (x1 : Vec Ideal S1x64x512 .bf16) (x2 : Vec Ideal S1x1x64 .i32)
    (x3 : Vec Ideal S1x64x512 .f32) (r : Fin 2000) (h : Fin 512) :
    k1_pay6 x0 x1 x2 x3 (ix2 r h)
      = ∑ u : Fin 64, msm (fun u' : Fin 64 => ∑ h' : Fin 512, x0 (ix3 (0 : Fin 1) r h') * x1 (ix3 (0 : Fin 1) u' h'))
          (fun u' : Fin 64 => FloatOps.sitofp (F := Ideal) .f32 (x2 (ix3 (0 : Fin 1) (0 : Fin 1) u'))) u
          * x3 (ix3 (0 : Fin 1) u h) := by
  unfold k1_pay6
  refine (matmulNN _ _ r h).trans (Finset.sum_congr rfl fun u _ => ?_)
  exact congrArg₂ (· * ·) (pay4_apply x0 x1 x2 r u) (shapeCast_1ab_ab_apply x3 shapeCasts_S1x64x512_S64x512 u h)

end Cert.CoAttn.R1

end
-- ==== Proof.Region1Block.lean ====
/-
  What the body of the second region leaves in the output's staging buffer, as one function of the four input blocks.
  The body stores two 1 × 2000 × 512 rectangles into the 1 × 2000 × 1024 block: columns 0 … 511 hold, row by row, the
  question rows weighted by that token row's attention; columns 512 … 1023 the second matrix's rows weighted by the same
  attention.  These are the two branches of the specification's `tokRow`, so the block is `tokRow` of its row at its
  column.  The two rectangles tile the block, and each store's payload is the block's function on its rectangle.
-/
import proofs.«160770_j72507637891628_2_alg».proof.Proof.Region1Attn
import proofs.«160770_j72507637891628_2_alg».proof.Proof.Gen.KernelIdeal.Frame

set_option synthInstance.maxSize 4096
set_option maxRecDepth 16384
noncomputable section

namespace Cert.CoAttn.R1

open Idealize.ShloMosaic Idealize.ShloMosaic.ValueIdx Cert.KernelIdeal Cert.KernelIdeal.Gen
open scoped BigOperators

/-! ## The specification's row, split at column 512 -/

/-- A column below 512 of a result row is the attention-weighted sum of the question rows' entries in that column. -/
theorem tokRow_lo (d : Fin 512 → EReal) (Q : Fin 64 → Fin 512 → EReal) (M : Fin 64 → EReal) (A : Fin 64 → Fin 512 → EReal)
    (j : Fin 1024) (h : Fin 512) (hj : j.val = h.val) :
    tokRow d Q M A j = ∑ u : Fin 64, msm (fun u' : Fin 64 => ∑ h' : Fin 512, d h' * Q u' h') M u * Q u h := by
  unfold tokRow
  rw [dif_pos (show j.val < 512 by have := h.isLt; omega)]
  refine Finset.sum_congr rfl fun u _ => ?_
  exact congrArg (fun z => _ * Q u z) (Fin.ext hj)

/-- A column from 512 on is the same weighted sum of the second matrix's entries in column (that column − 512). -/
theorem tokRow_hi (d : Fin 512 → EReal) (Q : Fin 64 → Fin 512 → EReal) (M : Fin 64 → EReal) (A : Fin 64 → Fin 512 → EReal)
    (j : Fin 1024) (h : Fin 512) (hj : j.val = 512 + h.val) :
    tokRow d Q M A j = ∑ u : Fin 64, msm (fun u' : Fin 64 => ∑ h' : Fin 512, d h' * Q u' h') M u * A u h := by
  unfold tokRow
  rw [dif_neg (show ¬ j.val < 512 by omega)]
  refine Finset.sum_congr rfl fun u _ => ?_
  exact congrArg (fun z => _ * A u z) (Fin.ext (show j.val - 512 = h.val by omega))

/-! ## The block the body leaves, as one function of its four input blocks -/

theorem hz3 : (![0, 0, 0] : Fin 3 → ℕ) = fun _ => 0 := funext fun a => by fin_cases a <;> rfl

/-- Entry (0, r, j) of the 1 × 2000 × 1024 block: the specification's row of token row `r` of the token block, against
    the question block, the question mask and the second matrix's block, at column `j`. -/
def blockG (x0 : Vec Ideal S1x2000x512 .bf16) (x1 : Vec Ideal S1x64x512 .bf16) (x2 : Vec Ideal S1x1x64 .i32)
    (x3 : Vec Ideal S1x64x512 .f32) : S1x2000x1024.Idx → EReal := fun y =>
  tokRow (fun h => x0 (ix3 (0 : Fin 1) (⟨(y 1).val, (y 1).isLt⟩ : Fin 2000) h)) (fun u h => x1 (ix3 (0 : Fin 1) u h))
    (fun u => FloatOps.sitofp (F := Ideal) .f32 (x2 (ix3 (0 : Fin 1) (0 : Fin 1) u))) (fun u h => x3 (ix3 (0 : Fin 1) u h))
    (⟨(y 2).val, (y 2).isLt⟩ : Fin 1024)

theorem blockG_of (x0 : Vec Ideal S1x2000x512 .bf16) (x1 : Vec Ideal S1x64x512 .bf16) (x2 : Vec Ideal S1x1x64 .i32)
    (x3 : Vec Ideal S1x64x512 .f32) (y : S1x2000x1024.Idx) (r : Fin 2000) (j : Fin 1024)
    (h1 : (y 1).val = r.val) (h2 : (y 2).val = j.val) :
    blockG x0 x1 x2 x3 y
      = tokRow (fun h => x0 (ix3 (0 : Fin 1) r h)) (fun u h => x1 (ix3 (0 : Fin 1) u h))
          (fun u => FloatOps.sitofp (F := Ideal) .f32 (x2 (ix3 (0 : Fin 1) (0 : Fin 1) u))) (fun u h => x3 (ix3 (0 : Fin 1) u h)) j := by
  have e1 : (⟨(y 1).val, (y 1).isLt⟩ : Fin 2000) = r := Fin.ext h1
  have e2 : (⟨(y 2).val, (y 2).isLt⟩ : Fin 1024) = j := Fin.ext h2
  unfold blockG
  rw [e1, e2]

/-- The store into columns 0 … 511 holds the block's function there. -/
theorem piece_lo (x0 : Vec Ideal S1x2000x512 .bf16) (x1 : Vec Ideal S1x64x512 .bf16) (x2 : Vec Ideal S1x1x64 .i32)
    (x3 : Vec Ideal S1x64x512 .f32) (x : S1x2000x512.Idx) :
    k1_pay1 (k1_pay5 x0 x1 x2) x = blockG x0 x1 x2 x3 ((r1_3 : Rect S1x2000x1024).emb x) := by
  obtain ⟨a, r, h, rfl⟩ : ∃ (a : Fin 1) (r : Fin 2000) (h : Fin 512), x = ix3 a r h := ⟨x 0, x 1, x 2, eq_ix3 x⟩
  unfold k1_pay1
  refine (shapeCast_ab_1ab_apply _ shapeCasts_S2000x512_S1x2000x512 a r h).trans ?_
  rw [pay5_apply]
  refine ((blockG_of x0 x1 x2 x3 _ r ⟨h.val, by have := h.isLt; omega⟩ ?_ ?_).trans (tokRow_lo _ _ _ _ _ h rfl)).symm
  · show 0 + 1 * r.val = r.val
    omega
  · show 0 + 1 * h.val = h.val
    omega

/-- The store into columns 512 … 1023 holds the block's function there. -/
theorem piece_hi (x0 : Vec Ideal S1x2000x512 .bf16) (x1 : Vec Ideal S1x64x512 .bf16) (x2 : Vec Ideal S1x1x64 .i32)
    (x3 : Vec Ideal S1x64x512 .f32) (x : S1x2000x512.Idx) :
    k1_pay2 (k1_pay6 x0 x1 x2 x3) x = blockG x0 x1 x2 x3 ((r1_4 : Rect S1x2000x1024).emb x) := by
  obtain ⟨a, r, h, rfl⟩ : ∃ (a : Fin 1) (r : Fin 2000) (h : Fin 512), x = ix3 a r h := ⟨x 0, x 1, x 2, eq_ix3 x⟩
  unfold k1_pay2
  refine (shapeCast_ab_1ab_apply _ shapeCasts_S2000x512_S1x2000x512 a r h).trans ?_
  rw [pay6_apply]
  refine ((blockG_of x0 x1 x2 x3 _ r ⟨512 + h.val, by have := h.isLt; omega⟩ ?_ ?_).trans (tokRow_hi _ _ _ _ _ h rfl)).symm
  · show 0 + 1 * r.val = r.val
    omega
  · show 512 + 1 * h.val = 512 + h.val
    omega

/-- What the body leaves in the output's staging buffer: the two stores tile the 1 × 2000 × 1024 block at column 512, and
    each holds the block's function on its half. -/
theorem out_eq (x0 : Vec Ideal S1x2000x512 .bf16) (x1 : Vec Ideal S1x64x512 .bf16) (x2 : Vec Ideal S1x1x64 .i32)
    (x3 : Vec Ideal S1x64x512 .f32) : out1_4 (F := Ideal) x0 x1 x2 x3 = blockG x0 x1 x2 x3 := by
  unfold out1_4
  simp only [View.ld_unit_zero (S := S1x2000x512) hz3, View.ld_unit_zero (S := S1x64x512) hz3, View.ld_unit_zero (S := S1x1x64) hz3]
  funext y
  refine View.canon_apply_of_pieces (Val := Elt Ideal) (e := .f32) (blockG x0 x1 x2 x3) _ ?_ y (cover1_4 _ _ y)
  intro p hp
  simp only [List.mem_cons, List.mem_nil_iff, or_false] at hp
  rcases hp with rfl | rfl
  · exact piece_hi x0 x1 x2 x3
  · exact piece_lo x0 x1 x2 x3

end Cert.CoAttn.R1

end
-- ==== Proof.Region1.lean ====
/-
  The second region of the kernel, read as a value.  Its grid is 8 × 3: point (b, tile) reads rows 2000·tile … of batch
  entry `b` of the token array, that entry's question rows, question mask and second 64 × 512 matrix, and writes rows
  2000·tile … of entry `b` of the 8 × 6000 × 1024 result.  Each point writes back the block of ONE function of the four
  arrays — the specification's `tokRow` of the token row against its batch entry's question rows, mask and second
  matrix — and the 24 blocks tile the result, so after the region the result array is that function.
-/
import proofs.«160770_j72507637891628_2_alg».proof.Proof.Region1Block
import Idealize.ShloMosaic.Lib.Pipeline.Value

set_option synthInstance.maxSize 4096
set_option maxRecDepth 16384
noncomputable section

namespace Cert.CoAttn.R1

open Idealize.ShloMosaic Idealize.ShloMosaic.ValueIdx Cert.KernelIdeal Cert.KernelIdeal.Gen
open scoped BigOperators

open Idealize.ShloMosaic.TcCoe Idealize.SL.Sem
open Idealize.ShloMosaic.Pipeline (Dat)

variable (V : (c : Dev nD) → (b : Ref sig .tc) → Buf (Elt Ideal) ((c : Thread nD τ).loc b))

/-! ## The result array as one function of the four arrays the region reads -/

/-- Entry (b, k, j) of the 8 × 6000 × 1024 result: the specification's row of token `k` of batch entry `b`, against
    that entry's question rows, question mask and second matrix, at column `j`. -/
def arrG (a2 : S8x6000x512.Idx → EReal) (a1 : S8x64x512.Idx → EReal) (a3 : S8x1x64.Idx → BitVec 32)
    (a4 : S8x64x512.Idx → EReal) : S8x6000x1024.Idx → EReal := fun i =>
  tokRow (fun h => a2 (ix3 (⟨(i 0).val, (i 0).isLt⟩ : Fin 8) (⟨(i 1).val, (i 1).isLt⟩ : Fin 6000) h))
    (fun u h => a1 (ix3 (⟨(i 0).val, (i 0).isLt⟩ : Fin 8) u h))
    (fun u => FloatOps.sitofp (F := Ideal) .f32 (a3 (ix3 (⟨(i 0).val, (i 0).isLt⟩ : Fin 8) (0 : Fin 1) u)))
    (fun u h => a4 (ix3 (⟨(i 0).val, (i 0).isLt⟩ : Fin 8) u h)) (⟨(i 2).val, (i 2).isLt⟩ : Fin 1024)

/-- The block's function agrees with the array's wherever the four blocks are the arrays' entries of batch entry `b`,
    token rows `2000·tile …`. -/
theorem blockG_eq_arrG (x0 : Vec Ideal S1x2000x512 .bf16) (x1 : Vec Ideal S1x64x512 .bf16) (x2 : Vec Ideal S1x1x64 .i32)
    (x3 : Vec Ideal S1x64x512 .f32) (a2 : S8x6000x512.Idx → EReal) (a1 : S8x64x512.Idx → EReal)
    (a3 : S8x1x64.Idx → BitVec 32) (a4 : S8x64x512.Idx → EReal) (y : S1x2000x1024.Idx) (i : S8x6000x1024.Idx)
    (b : Fin 8) (tile : Fin 3)
    (hi0 : (i 0).val = b.val) (hi1 : (i 1).val = tile.val * 2000 + (y 1).val) (hi2 : (i 2).val = (y 2).val)
    (hx0 : ∀ (r : Fin 2000) (h : Fin 512), x0 (ix3 (0 : Fin 1) r h)
      = a2 (ix3 b (⟨tile.val * 2000 + r.val, by have := tile.isLt; have := r.isLt; omega⟩ : Fin 6000) h))
    (hx1 : ∀ (u : Fin 64) (h : Fin 512), x1 (ix3 (0 : Fin 1) u h) = a1 (ix3 b u h))
    (hx2 : ∀ u : Fin 64, x2 (ix3 (0 : Fin 1) (0 : Fin 1) u) = a3 (ix3 b (0 : Fin 1) u))
    (hx3 : ∀ (u : Fin 64) (h : Fin 512), x3 (ix3 (0 : Fin 1) u h) = a4 (ix3 b u h)) :
    blockG x0 x1 x2 x3 y = arrG a2 a1 a3 a4 i := by
  have e0 : (⟨(i 0).val, (i 0).isLt⟩ : Fin 8) = b := Fin.ext hi0
  have e1 : (⟨(i 1).val, (i 1).isLt⟩ : Fin 6000)
      = ⟨tile.val * 2000 + (⟨(y 1).val, (y 1).isLt⟩ : Fin 2000).val, by have := tile.isLt; have := (y 1).isLt; omega⟩ := Fin.ext hi1
  have e2 : (⟨(i 2).val, (i 2).isLt⟩ : Fin 1024) = ⟨(y 2).val, (y 2).isLt⟩ := Fin.ext hi2
  unfold blockG arrG
  rw [e0, e1, e2]
  have f0 : (fun h : Fin 512 => x0 (ix3 (0 : Fin 1) (⟨(y 1).val, (y 1).isLt⟩ : Fin 2000) h))
      = fun h : Fin 512 => a2 (ix3 b (⟨tile.val * 2000 + (⟨(y 1).val, (y 1).isLt⟩ : Fin 2000).val,
          by have := tile.isLt; have := (y 1).isLt; omega⟩ : Fin 6000) h) := funext fun h => hx0 _ h
  have f1 : (fun (u : Fin 64) (h : Fin 512) => x1 (ix3 (0 : Fin 1) u h)) = fun (u : Fin 64) (h : Fin 512) => a1 (ix3 b u h) :=
    funext fun u => funext fun h => hx1 u h
  have f2 : (fun u : Fin 64 => FloatOps.sitofp (F := Ideal) .f32 (x2 (ix3 (0 : Fin 1) (0 : Fin 1) u)))
      = fun u : Fin 64 => FloatOps.sitofp (F := Ideal) .f32 (a3 (ix3 b (0 : Fin 1) u)) :=
    funext fun u => congrArg (FloatOps.sitofp (F := Ideal) .f32) (hx2 u)
  have f3 : (fun (u : Fin 64) (h : Fin 512) => x3 (ix3 (0 : Fin 1) u h)) = fun (u : Fin 64) (h : Fin 512) => a4 (ix3 b u h) :=
    funext fun u => funext fun h => hx3 u h
  rw [f0, f1, f2, f3]

/-! ## The windows' block indices over the 8 × 3 grid, and the blocks read off their arrays -/

/-- Point `t` of the grid is batch entry `t / 3`, tile `t % 3`: the token and result windows move with both, the
    question, mask and second-matrix windows with the batch entry alone. -/
theorem idx_facts : ∀ t : Fin cfg1.N,
    win1_4.index t (0 : Fin 3) = t.val / 3 ∧ win1_4.index t (1 : Fin 3) = t.val % 3 ∧ win1_4.index t (2 : Fin 3) = 0
    ∧ win1_0.index t (0 : Fin 3) = t.val / 3 ∧ win1_0.index t (1 : Fin 3) = t.val % 3 ∧ win1_0.index t (2 : Fin 3) = 0
    ∧ win1_1.index t (0 : Fin 3) = t.val / 3 ∧ win1_1.index t (1 : Fin 3) = 0 ∧ win1_1.index t (2 : Fin 3) = 0
    ∧ win1_2.index t (0 : Fin 3) = t.val / 3 ∧ win1_2.index t (1 : Fin 3) = 0 ∧ win1_2.index t (2 : Fin 3) = 0
    ∧ win1_3.index t (0 : Fin 3) = t.val / 3 ∧ win1_3.index t (1 : Fin 3) = 0 ∧ win1_3.index t (2 : Fin 3) = 0 :=
  (by decide +kernel : ∀ t : Fin grid1.N, _)

/-- The token window's block at a point: rows `2000·tile …` of batch entry `b` of the token array. -/
theorem read0 (c : Dev nD) (t : Fin cfg1.N) (b : Fin 8) (tile : Fin 3)
    (hb : win1_0.index t (0 : Fin 3) = b.val) (ht : win1_0.index t (1 : Fin 3) = tile.val) (h2 : win1_0.index t (2 : Fin 3) = 0)
    (r : Fin 2000) (h : Fin 512) :
    (iblk1 V c 0 t : Vec Ideal S1x2000x512 .bf16) (ix3 (0 : Fin 1) r h)
      = (V c main_v2 : S8x6000x512.Idx → EReal) (ix3 b (⟨tile.val * 2000 + r.val, by have := tile.isLt; have := r.isLt; omega⟩ : Fin 6000) h) := by
  unfold iblk1
  rw [View.read_apply]
  show V c main_v2 _ = V c main_v2 _
  refine congrArg (V c main_v2) (funext fun a => Fin.ext ?_)
  match a with
  | ⟨0, _⟩ => show win1_0.index t (0 : Fin 3) * 1 + 1 * 0 = b.val; rw [hb]; omega
  | ⟨1, _⟩ => show win1_0.index t (1 : Fin 3) * 2000 + 1 * r.val = tile.val * 2000 + r.val; rw [ht]; omega
  | ⟨2, _⟩ => show win1_0.index t (2 : Fin 3) * 512 + 1 * h.val = h.val; rw [h2]; omega

/-- The question window's block at a point: batch entry `b` of the question array. -/
theorem read1 (c : Dev nD) (t : Fin cfg1.N) (b : Fin 8)
    (hb : win1_1.index t (0 : Fin 3) = b.val) (h1 : win1_1.index t (1 : Fin 3) = 0) (h2 : win1_1.index t (2 : Fin 3) = 0)
    (u : Fin 64) (h : Fin 512) :
    (iblk1 V c 1 t : Vec Ideal S1x64x512 .bf16) (ix3 (0 : Fin 1) u h) = (V c main_v1 : S8x64x512.Idx → EReal) (ix3 b u h) := by
  unfold iblk1
  rw [View.read_apply]
  show V c main_v1 _ = V c main_v1 _
  refine congrArg (V c main_v1) (funext fun a => Fin.ext ?_)
  match a with
  | ⟨0, _⟩ => show win1_1.index t (0 : Fin 3) * 1 + 1 * 0 = b.val; rw [hb]; omega
  | ⟨1, _⟩ => show win1_1.index t (1 : Fin 3) * 64 + 1 * u.val = u.val; rw [h1]; omega
  | ⟨2, _⟩ => show win1_1.index t (2 : Fin 3) * 512 + 1 * h.val = h.val; rw [h2]; omega

/-- The mask window's block at a point: batch entry `b` of the question mask. -/
theorem read2 (c : Dev nD) (t : Fin cfg1.N) (b : Fin 8)
    (hb : win1_2.index t (0 : Fin 3) = b.val) (h1 : win1_2.index t (1 : Fin 3) = 0) (h2 : win1_2.index t (2 : Fin 3) = 0)
    (u : Fin 64) :
    (iblk1 V c 2 t : Vec Ideal S1x1x64 .i32) (ix3 (0 : Fin 1) (0 : Fin 1) u) = (V c main_v3 : S8x1x64.Idx → BitVec 32) (ix3 b (0 : Fin 1) u) := by
  unfold iblk1
  rw [View.read_apply]
  show V c main_v3 _ = V c main_v3 _
  refine congrArg (V c main_v3) (funext fun a => Fin.ext ?_)
  match a with
  | ⟨0, _⟩ => show win1_2.index t (0 : Fin 3) * 1 + 1 * 0 = b.val; rw [hb]; omega
  | ⟨1, _⟩ => show win1_2.index t (1 : Fin 3) * 1 + 1 * 0 = 0; rw [h1]
  | ⟨2, _⟩ => show win1_2.index t (2 : Fin 3) * 64 + 1 * u.val = u.val; rw [h2]; omega

/-- The second matrix's window's block at a point: batch entry `b` of that array. -/
theorem read3 (c : Dev nD) (t : Fin cfg1.N) (b : Fin 8)
    (hb : win1_3.index t (0 : Fin 3) = b.val) (h1 : win1_3.index t (1 : Fin 3) = 0) (h2 : win1_3.index t (2 : Fin 3) = 0)
    (u : Fin 64) (h : Fin 512) :
    (iblk1 V c 3 t : Vec Ideal S1x64x512 .f32) (ix3 (0 : Fin 1) u h) = (V c main_v4 : S8x64x512.Idx → EReal) (ix3 b u h) := by
  unfold iblk1
  rw [View.read_apply]
  show V c main_v4 _ = V c main_v4 _
  refine congrArg (V c main_v4) (funext fun a => Fin.ext ?_)
  match a with
  | ⟨0, _⟩ => show win1_3.index t (0 : Fin 3) * 1 + 1 * 0 = b.val; rw [hb]; omega
  | ⟨1, _⟩ => show win1_3.index t (1 : Fin 3) * 64 + 1 * u.val = u.val; rw [h1]; omega
  | ⟨2, _⟩ => show win1_3.index t (2 : Fin 3) * 512 + 1 * h.val = h.val; rw [h2]; omega

/-! ## What each point writes back, the cover, and the array after the region -/

/-- Point `t` writes back block `t` of the array's function. -/
theorem flushed_eq (c : Dev nD) (t : Fin cfg1.N) :
    (dat1 (F := Ideal) V c).flushed 4 t
      = ((cfg1.win 4).blk t).view.read (Elt Ideal) (arrG (V c main_v2) (V c main_v1) (V c main_v3) (V c main_v4)) := by
  show (cfg1.win 4).cut (grid1.coords t) ((dat1 (F := Ideal) V c).after 4 t) = _
  rw [after1_4]
  refine (congrArg ((cfg1.win 4).cut (grid1.coords t)) (out_eq (iblk1 V c 0 t) (iblk1 V c 1 t) (iblk1 V c 2 t) (iblk1 V c 3 t))).trans ?_
  obtain ⟨e40, e41, e42, e00, e01, e02, e10, e11, e12, e20, e21, e22, e30, e31, e32⟩ := idx_facts t
  have hN : t.val < 24 := lt_of_lt_of_eq t.isLt (show cfg1.N = 24 from N_1)
  funext j
  refine blockG_eq_arrG _ _ _ _ _ _ _ _ _ _ (⟨t.val / 3, by omega⟩ : Fin 8) (⟨t.val % 3, by omega⟩ : Fin 3) ?_ ?_ ?_
    (fun r h => read0 V c t _ _ e00 e01 e02 r h) (fun u h => read1 V c t _ e10 e11 e12 u h)
    (fun u => read2 V c t _ e20 e21 e22 u) (fun u h => read3 V c t _ e30 e31 e32 u h)
  · show win1_4.index t (0 : Fin 3) * 1 + 1 * (j 0).val = t.val / 3
    have : (j 0).val < 1 := (j 0).isLt
    rw [e40]; omega
  · show win1_4.index t (1 : Fin 3) * 2000 + 1 * (j 1).val = t.val % 3 * 2000 + (j 1).val
    rw [e41]; omega
  · show win1_4.index t (2 : Fin 3) * 1024 + 1 * (j 2).val = (j 2).val
    rw [e42]; omega

/-- An index of the result array is in point `t`'s block iff each coordinate is in the block's range on its axis. -/
theorem mem_blk4 (t : Fin cfg1.N) (i : S8x6000x1024.Idx) :
    i ∈ ((cfg1.win 4).blk t).view.set
      ↔ ∀ a : Fin 3, win1_4.index t a * S1x2000x1024.size a ≤ (i a).val
          ∧ (i a).val < win1_4.index t a * S1x2000x1024.size a + S1x2000x1024.size a := by
  show i ∈ ((View.whole main_v5).slice (win1_4.rect t)).set ↔ _
  rw [View.set_slice_whole, Rect.mem_set_unit]
  exact Iff.rfl

/-- Every entry of the result is written back by some point: row `k` of batch entry `b` by point `3·b + k / 2000`. -/
theorem cover4 (i : S8x6000x1024.Idx) :
    ∃ t : Fin cfg1.N, (cfg1.win 4).flush t = true ∧ i ∈ ((cfg1.win 4).blk t).view.set := by
  have hi0 : (i 0).val < 8 := (i 0).isLt
  have hi1 : (i 1).val < 6000 := (i 1).isLt
  have hi2 : (i 2).val < 1024 := (i 2).isLt
  obtain ⟨t, ht⟩ : ∃ t : Fin cfg1.N, t.val = (i 0).val * 3 + (i 1).val / 2000 :=
    ⟨⟨(i 0).val * 3 + (i 1).val / 2000, by rw [show cfg1.N = 24 from N_1]; omega⟩, rfl⟩
  obtain ⟨e40, e41, e42, -⟩ := idx_facts t
  refine ⟨t, flush1_4 t, ?_⟩
  rw [mem_blk4]
  intro a
  match a with
  | ⟨0, _⟩ =>
    show win1_4.index t (0 : Fin 3) * 1 ≤ (i 0).val ∧ (i 0).val < win1_4.index t (0 : Fin 3) * 1 + 1
    rw [e40, ht]; omega
  | ⟨1, _⟩ =>
    show win1_4.index t (1 : Fin 3) * 2000 ≤ (i 1).val ∧ (i 1).val < win1_4.index t (1 : Fin 3) * 2000 + 2000
    rw [e41, ht]; omega
  | ⟨2, _⟩ =>
    show win1_4.index t (2 : Fin 3) * 1024 ≤ (i 2).val ∧ (i 2).val < win1_4.index t (2 : Fin 3) * 1024 + 1024
    rw [e42]; omega

/-- The result array after the region is the array's function of the four arrays as the region finds them. -/
theorem arr_eq (c : Dev nD) :
    (dat1 (F := Ideal) V c).arrAt 4 cfg1.N = arrG (V c main_v2) (V c main_v1) (V c main_v3) (V c main_v4) :=
  (dat1 (F := Ideal) V c).arrAt_eq_of_cover 4 (arrG (V c main_v2) (V c main_v1) (V c main_v3) (V c main_v4))
    (fun t _ => flushed_eq V c t) cover4

/-- Entry (b, k, j) of the result array after the region: the specification's row of token `k` of batch entry `b`. -/
theorem final1 (c : Dev nD) (b : Fin 8) (k : Fin 6000) (j : Fin 1024) :
    ((dat1 (F := Ideal) V c).arrAt 4 cfg1.N : S8x6000x1024.Idx → EReal) (ix3 b k j)
      = tokRow (fun h => (V c main_v2 : S8x6000x512.Idx → EReal) (ix3 b k h))
          (fun u h => (V c main_v1 : S8x64x512.Idx → EReal) (ix3 b u h))
          (fun u => FloatOps.sitofp (F := Ideal) .f32 ((V c main_v3 : S8x1x64.Idx → BitVec 32) (ix3 b (0 : Fin 1) u)))
          (fun u h => (V c main_v4 : S8x64x512.Idx → EReal) (ix3 b u h)) j := by
  rw [arr_eq V c]
  rfl

end Cert.CoAttn.R1

end
-- ==== Proof.lean ====
/-
  Kernel and reference compute the same co-attention block on the extended reals.

  The specification (Proof/Spec.lean) is one function `out` of the four arguments.  On the reference's side each of its
  host operations is read at an index and composed (Proof/RefValue*.lean); the one law used is that a sum over the
  6000 tokens of a batch entry is the sum, document by document, of the sums over each document's 300 tokens.  On the
  kernel's side the first launch leaves, batch entry by batch entry, the matrix of attention-weighted document rows
  (20 accumulation steps from zero: Proof/Region0*.lean), the second launch leaves the result rows block by block
  (Proof/Region1*.lean), and the host operations around them only re-lay arrays (Proof/HostReads.lean).  A change of
  float format is the identity on the extended reals, and addition there is commutative and associative, so no
  finiteness of the inputs is used in the value claim.  The three frame claims are the generated frame certificates
  of the two kernel programs and the reference's run with its result dropped; the idealization rewrote nothing.
-/
import proofs.«160770_j72507637891628_2_alg».proof.Defs
import proofs.«160770_j72507637891628_2_alg».proof.Proof.Gen.Kernel
import proofs.«160770_j72507637891628_2_alg».proof.Proof.Gen.Kernel.Skeleton
import proofs.«160770_j72507637891628_2_alg».proof.Proof.Gen.Kernel.Launch
import proofs.«160770_j72507637891628_2_alg».proof.Proof.Gen.Kernel.Points
import proofs.«160770_j72507637891628_2_alg».proof.Proof.Gen.Kernel.Frame
import proofs.«160770_j72507637891628_2_alg».proof.Proof.Gen.KernelIdeal
import proofs.«160770_j72507637891628_2_alg».proof.Proof.Gen.KernelIdeal.Skeleton
import proofs.«160770_j72507637891628_2_alg».proof.Proof.Gen.KernelIdeal.Launch
import proofs.«160770_j72507637891628_2_alg».proof.Proof.Gen.KernelIdeal.Points
import proofs.«160770_j72507637891628_2_alg».proof.Proof.Gen.KernelIdeal.Frame
import proofs.«160770_j72507637891628_2_alg».proof.Proof.Gen.ReferenceIdeal
import proofs.«160770_j72507637891628_2_alg».proof.Proof.Gen.Pre_finite_inputs
import proofs.«160770_j72507637891628_2_alg».proof.Proof.RefRead
import proofs.«160770_j72507637891628_2_alg».proof.Proof.RefValue
import proofs.«160770_j72507637891628_2_alg».proof.Proof.KernelRun
import proofs.«160770_j72507637891628_2_alg».proof.Proof.KernelValue
import proofs.«160770_j72507637891628_2_alg».proof.Proof.Region0
import proofs.«160770_j72507637891628_2_alg».proof.Proof.Region0Trip
import proofs.«160770_j72507637891628_2_alg».proof.Proof.Region1
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and keeps its arguments: the generated frame certificate. -/
theorem frame_kernel : Cert.frame_Kernel := fun m ρ _ => Cert.Kernel.Gen.frame m ρ

/-- The idealized kernel runs and keeps its arguments: the generated frame certificate. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Region 1's value lemma in the form the kernel's assembly takes. -/
theorem final1 : Cert.CoAttn.Kernel.Final1 := fun V c b k j => Cert.CoAttn.R1.final1 V c b k j

/-- Region 0's value lemma in the form the kernel's assembly takes. -/
theorem final0 : Cert.CoAttn.Kernel.Final0 := fun V c b u h =>
  Cert.CoAttn.R0.final0 Cert.CoAttn.R0.trip_apply V c b u h

/-- Both programs end with the specification's `out` of the (agreeing) arguments in their result arrays. -/
theorem algebraic : Cert.algebraic_KernelIdeal_ReferenceIdeal := by
  intro m ρ m' ρ' _ hagree
  refine ⟨_, (θ_run (Cert.KernelIdeal.defs (F := Ideal)) _ _).mono
    (fun r h c => ⟨(h c).1.trans (Cert.CoAttn.Kernel.kernel_result final1 final0 m ρ c), (h c).2⟩)
    (Cert.CoAttn.Run.run_result m ρ), ?_⟩
  refine (θ_run Cert.ReferenceIdeal.defs _ _).mono (fun r h c => ⟨?_, (h c).2⟩)
    (Cert.ReferenceIdeal.ValueP.run (F := Ideal) m' ρ')
  rw [(h c).1, Cert.ReferenceIdeal.ReadP.val_main_v56_eq, (hagree c).1, (hagree c).2.1, (hagree c).2.2.1, (hagree c).2.2.2]
  funext i
  obtain ⟨b, n, t, j, rfl⟩ : ∃ (b : Fin 8) (n : Fin 20) (t : Fin 300) (j : Fin 1024), i = ix4 b n t j :=
    ⟨i 0, i 1, i 2, i 3, eq_ix4 i⟩
  exact Cert.CoAttn.Ref.ref_out _ _ _ _ b n t j

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
